-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000 : Shape := ⟨1, ![10000]⟩
abbrev S10000x512 : Shape := ⟨2, ![10000, 512]⟩
abbrev S100 : Shape := ⟨1, ![100]⟩
abbrev S768x356 : Shape := ⟨2, ![768, 356]⟩
abbrev S768x256 : Shape := ⟨2, ![768, 256]⟩
abbrev S768 : Shape := ⟨1, ![768]⟩
abbrev S256x512 : Shape := ⟨2, ![256, 512]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000 : S_.BroadcastsInDim S10000 (![] : Fin 0 → Fin S10000.rank)
  reducesTo_S10000_S_d0 : S10000.ReducesTo [0] S_
  bcast_S_S10000x512 : S_.BroadcastsInDim S10000x512 (![] : Fin 0 → Fin S10000x512.rank)
  reducesTo_S10000x512_S_d0_1 : S10000x512.ReducesTo [0, 1] S_
  bcast_S_S100 : S_.BroadcastsInDim S100 (![] : Fin 0 → Fin S100.rank)
  reducesTo_S100_S_d0 : S100.ReducesTo [0] S_
  bcast_S_S768x356 : S_.BroadcastsInDim S768x356 (![] : Fin 0 → Fin S768x356.rank)
  reducesTo_S768x356_S_d0_1 : S768x356.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256x512 .f32) (main_arg12 : FVec F S256 .f32) (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  let main_v54 : FVec F S256x512 .f32 := Host.absf main_arg11
  let main_cst_20 : FVec F S_ .f32 := constant S_ .f32 0x7F800000#32
  let main_v55 : FVec F S256x512 .f32 := broadcastInDim S256x512 ![] bcast_S_S256x512 main_cst_20
  let main_v56 : IVec S256x512 1 := cmpf .olt main_v54 main_v55
  let main_c_21 : IVec S_ 1 := constantI S_ 1 1#1
  let main_v57 : IVec S_ 1 := (fun x v => Host.reduce IntOp.andi x v reducesTo_S256x512_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S768x356 .f32) (main_arg8 : FVec F S768x256 .f32) (main_arg9 : FVec F S768 .f32) (main_arg10 : FVec F S768 .f32) (main_arg11 : FVec F S256x512 .f32) (main_arg12 : FVec F S256 .f32) (main_v33 : IVec S_ 1) : IVec S_ 1 :=
  let main_v34 : FVec F S768x356 .f32 := Host.absf main_arg7
  let main_cst_12 : FVec F S_ .f32 := constant S_ .f32 0x7F800000#32
  let main_v35 : FVec F S768x356 .f32 := broadcastInDim S768x356 ![] bcast_S_S768x356 main_cst_12
  let main_v36 : IVec S768x356 1 := cmpf .olt main_v34 main_v35
  let main_c_13 : IVec S_ 1 := constantI S_ 1 1#1
  let main_v37 : IVec S_ 1 := (fun x v => Host.reduce IntOp.andi x v reducesTo_S768x356_S_d0_1 h_S_) main_v36 main_c_13
  let main_v38 : IVec S_ 1 := andi main_v33 main_v37
  let main_v39 : FVec F S768x256 .f32 := Host.absf main_arg8
  let main_cst_14 : FVec F S_ .f32 := constant S_ .f32 0x7F800000#32
  let main_v40 : FVec F S768x256 .f32 := broadcastInDim S768x256 ![] bcast_S_S768x256 main_cst_14
  let main_v41 : IVec S768x256 1 := cmpf .olt main_v39 main_v40
  let main_c_15 : IVec S_ 1 := constantI S_ 1 1#1
  let main_v42 : IVec S_ 1 := (fun x v => Host.reduce IntOp.andi x v reducesTo_S768x256_S_d0_1 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_arg11 main_arg12 main_v48 main_v49 main_v50

def fn_part1 {F : FTy → Type} [FloatOps F] (main_arg4 : FVec F S10000x512 .f32) (main_arg5 : FVec F S100 .f32) (main_arg6 : FVec F S100 .f32) (main_arg7 : FVec F S768x356 .f32) (main_arg8 : FVec F S768x256 .f32) (main_arg9 : FVec F S768 .f32) (main_arg10 : FVec F S768 .f32) (main_arg11 : FVec F S256x512 .f32) (main_arg12 : FVec F S256 .f32) (main_v13 : IVec S_ 1) (main_v16 : IVec S10000 1) : IVec S_ 1 :=
  let main_c_5 : IVec S_ 1 := constantI S_ 1 1#1
  let main_v17 : IVec S_ 1 := (fun x v => Host.reduce IntOp.andi x v reducesTo_S10000_S_d0 h_S_) main_v16 main_c_5
  let main_v18 : IVec S_ 1 := andi main_v13 main_v17
  let main_v19 : FVec F S10000x512 .f32 := Host.absf main_arg4
  let main_cst_6 : FVec F S_ .f32 := constant S_ .f32 0x7F800000#32
  let main_v20 : FVec F S10000x512 .f32 := broadcastInDim S10000x512 ![] bcast_S_S10000x512 main_cst_6
  let main_v21 : IVec S10000x512 1 := cmpf .olt main_v19 main_v20
  let main_c_7 : IVec S_ 1 := constantI S_ 1 1#1
  let main_v22 : IVec S_ 1 := (fun x v => Host.reduce IntOp.andi x v reducesTo_S10000x512_S_d0_1 h_S_) main_v21 main_c_7
  let main_v23 : IVec S_ 1 := andi main_v18 main_v22
  let main_v24 : FVec F S100 .f32 := Host.absf main_arg5
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S100 .f32 := Host.absf main_arg6
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x256 .f32) (main_arg1 : FVec F S10000x256 .f32) (main_arg2 : FVec F S10000 .f32) (main_arg3 : FVec F S10000 .f32) (main_arg4 : FVec F S10000x512 .f32) (main_arg5 : FVec F S100 .f32) (main_arg6 : FVec F S100 .f32) (main_arg7 : FVec F S768x356 .f32) (main_arg8 : FVec F S768x256 .f32) (main_arg9 : FVec F S768 .f32) (main_arg10 : FVec F S768 .f32) (main_arg11 : FVec F S256x512 .f32) (main_arg12 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x256 .f32 := Host.absf main_arg1
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S10000 .f32 := Host.absf main_arg2
  let main_cst_2 : FVec F S_ .f32 := constant S_ .f32 0x7F800000#32
  let main_v10 : FVec F S10000 .f32 := broadcastInDim S10000 ![] bcast_S_S10000 main_cst_2
  let main_v11 : IVec S10000 1 := cmpf .olt main_v9 main_v10
  let main_c_3 : IVec S_ 1 := constantI S_ 1 1#1
  let main_v12 : IVec S_ 1 := (fun x v => Host.reduce IntOp.andi x v reducesTo_S10000_S_d0 h_S_) main_v11 main_c_3
  let main_v13 : IVec S_ 1 := andi main_v8 main_v12
  let main_v14 : FVec F S10000 .f32 := Host.absf main_arg3
  let main_cst_4 : FVec F S_ .f32 := constant S_ .f32 0x7F800000#32
  let main_v15 : FVec F S10000 .f32 := broadcastInDim S10000 ![] bcast_S_S10000 main_cst_4
  let main_v16 : IVec S10000 1 := cmpf .olt main_v14 main_v15
  fn_part1 (F := F) main_arg4 main_arg5 main_arg6 main_arg7 main_arg8 main_arg9 main_arg10 main_arg11 main_arg12 main_v13 main_v16
-- ==== Kernel.lean ====
abbrev S10000x256 : Shape := ⟨2, ![10000, 256]⟩
abbrev S10000 : Shape := ⟨1, ![10000]⟩
abbrev S10000x512 : Shape := ⟨2, ![10000, 512]⟩
abbrev S100 : Shape := ⟨1, ![100]⟩
abbrev S768x356 : Shape := ⟨2, ![768, 356]⟩
abbrev S768x256 : Shape := ⟨2, ![768, 256]⟩
abbrev S768 : Shape := ⟨1, ![768]⟩
abbrev S256x512 : Shape := ⟨2, ![256, 512]⟩
abbrev S256 : Shape := ⟨1, ![256]⟩
abbrev S256x768 : Shape := ⟨2, ![256, 768]⟩
abbrev S_ : Shape := ⟨0, ![]⟩
abbrev S128x768 : Shape := ⟨2, ![128, 768]⟩
abbrev S768x100 : Shape := ⟨2, ![768, 100]⟩
abbrev S100x768 : Shape := ⟨2, ![100, 768]⟩
abbrev S1 : Shape := ⟨1, ![1]⟩
abbrev S512x256 : Shape := ⟨2, ![512, 256]⟩
abbrev S1x128 : Shape := ⟨2, ![1, 128]⟩
abbrev S2 : Shape := ⟨1, ![2]⟩
abbrev S10000x1 : Shape := ⟨2, ![10000, 1]⟩
abbrev S1x768 : Shape := ⟨2, ![1, 768]⟩
abbrev S1x256 : Shape := ⟨2, ![1, 256]⟩
abbrev S2000x1 : Shape := ⟨2, ![2000, 1]⟩
abbrev S2000x256 : Shape := ⟨2, ![2000, 256]⟩
abbrev S2000x512 : Shape := ⟨2, ![2000, 512]⟩
abbrev S2000x128 : Shape := ⟨2, ![2000, 128]⟩
abbrev S2000x768 : Shape := ⟨2, ![2000, 768]⟩

abbrev nBuf : Space → Nat
  | .hbm => 49
  | .vmem => 21
  | .smem => 0
  | _ => 0

abbrev bufTy : (tb : Table) → Fin (tcTables nBuf tb) → BufTy
  | .hbm, ⟨0, _⟩ => ⟨S10000x256, .f32⟩
  | .hbm, ⟨1, _⟩ => ⟨S10000x256, .f32⟩
  | .hbm, ⟨2, _⟩ => ⟨S10000, .f32⟩
  | .hbm, ⟨3, _⟩ => ⟨S10000, .f32⟩
  | .hbm, ⟨4, _⟩ => ⟨S10000x512, .f32⟩
  | .hbm, ⟨5, _⟩ => ⟨S100, .f32⟩
  | .hbm, ⟨6, _⟩ => ⟨S100, .f32⟩
  | .hbm, ⟨7, _⟩ => ⟨S768x356, .f32⟩
  | .hbm, ⟨8, _⟩ => ⟨S768x256, .f32⟩
  | .hbm, ⟨9, _⟩ => ⟨S768, .f32⟩
  | .hbm, ⟨10, _⟩ => ⟨S768, .f32⟩
  | .hbm, ⟨11, _⟩ => ⟨S256x512, .f32⟩
  | .hbm, ⟨12, _⟩ => ⟨S256, .f32⟩
  | .hbm, ⟨13, _⟩ => ⟨S768x256, .f32⟩
  | .hbm, ⟨14, _⟩ => ⟨S256x768, .f32⟩
  | .hbm, ⟨15, _⟩ => ⟨S_, .f32⟩
  | .hbm, ⟨16, _⟩ => ⟨S128x768, .f32⟩
  | .hbm, ⟨17, _⟩ => ⟨S768x100, .f32⟩
  | .hbm, ⟨18, _⟩ => ⟨S100x768, .f32⟩
  | .hbm, ⟨19, _⟩ => ⟨S_, .i32⟩
  | .hbm, ⟨20, _⟩ => ⟨S1, .i32⟩
  | .hbm, ⟨21, _⟩ => ⟨S128x768, .f32⟩
  | .hbm, ⟨22, _⟩ => ⟨S256x768, .f32⟩
  | .hbm, ⟨23, _⟩ => ⟨S512x256, .f32⟩
  | .hbm, ⟨24, _⟩ => ⟨S_, .f32⟩
  | .hbm, ⟨25, _⟩ => ⟨S1x128, .f32⟩
  | .hbm, ⟨26, _⟩ => ⟨S_, .f32⟩
  | .hbm, ⟨27, _⟩ => ⟨S100, .f32⟩
  | .hbm, ⟨28, _⟩ => ⟨S100, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S1x128, .f32⟩
  | .hbm, ⟨43, _⟩ => ⟨S10000x1, .f32⟩
  | .hbm, ⟨44, _⟩ => ⟨S10000x1, .f32⟩
  | .hbm, ⟨45, _⟩ => ⟨S1x768, .f32⟩
  | .hbm, ⟨46, _⟩ => ⟨S1x768, .f32⟩
  | .hbm, ⟨47, _⟩ => ⟨S1x256, .f32⟩
  | .hbm, ⟨48, _⟩ => ⟨S10000x256, .f32⟩
  | .local _ .vmem, ⟨0, _⟩ => ⟨S2000x1, .f32⟩
  | .local _ .vmem, ⟨1, _⟩ => ⟨S2000x1, .f32⟩
  | .local _ .vmem, ⟨2, _⟩ => ⟨S2000x1, .f32⟩
  | .local _ .vmem, ⟨3, _⟩ => ⟨S2000x1, .f32⟩
  | .local _ .vmem, ⟨4, _⟩ => ⟨S1x128, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x512, .f32⟩
  | .local _ .vmem, ⟨10, _⟩ => ⟨S2000x512, .f32⟩
  | .local _ .vmem, ⟨11, _⟩ => ⟨S1x128, .f32⟩
  | .local _ .vmem, ⟨12, _⟩ => ⟨S256x768, .f32⟩
  | .local _ .vmem, ⟨13, _⟩ => ⟨S128x768, .f32⟩
  | .local _ .vmem, ⟨14, _⟩ => ⟨S256x768, .f32⟩
  | .local _ .vmem, ⟨15, _⟩ => ⟨S512x256, .f32⟩
  | .local _ .vmem, ⟨16, _⟩ => ⟨S1x768, .f32⟩
  | .local _ .vmem, ⟨17, _⟩ => ⟨S1x768, .f32⟩
  | .local _ .vmem, ⟨18, _⟩ => ⟨S1x256, .f32⟩
  | .local _ .vmem, ⟨19, _⟩ => ⟨S2000x256, .f32⟩
  | .local _ .vmem, ⟨20, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_cst_0 : Ref sig .tc := ⟨.hbm, 24, rfl⟩
abbrev main_call0_v9 : Ref sig .tc := ⟨.hbm, 25, rfl⟩
abbrev main_call0_cst_1 : Ref sig .tc := ⟨.hbm, 26, rfl⟩
abbrev main_call0_v10 : Ref sig .tc := ⟨.hbm, 27, rfl⟩
abbrev main_call0_v11 : Ref sig .tc := ⟨.hbm, 28, rfl⟩
abbrev main_call0_c_2 : Ref sig .tc := ⟨.hbm, 29, rfl⟩
abbrev main_call0_v12 : Ref sig .tc := ⟨.hbm, 30, rfl⟩
abbrev main_call0_c_3 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_cst_4 : Ref sig .tc := ⟨.hbm, 35, rfl⟩
abbrev main_call0_v16 : Ref sig .tc := ⟨.hbm, 36, rfl⟩
abbrev main_call0_c_5 : Ref sig .tc := ⟨.hbm, 37, rfl⟩
abbrev main_call0_v17 : Ref sig .tc := ⟨.hbm, 38, rfl⟩
abbrev main_call0_c_6 : Ref sig .tc := ⟨.hbm, 39, rfl⟩
abbrev main_call0_v18 : Ref sig .tc := ⟨.hbm, 40, rfl⟩
abbrev main_call0_v19 : Ref sig .tc := ⟨.hbm, 41, rfl⟩
abbrev main_call0_v20 : Ref sig .tc := ⟨.hbm, 42, rfl⟩
abbrev main_call0_v21 : Ref sig .tc := ⟨.hbm, 43, rfl⟩
abbrev main_call0_v22 : Ref sig .tc := ⟨.hbm, 44, rfl⟩
abbrev main_call0_v23 : Ref sig .tc := ⟨.hbm, 45, rfl⟩
abbrev main_call0_v24 : Ref sig .tc := ⟨.hbm, 46, rfl⟩
abbrev main_call0_v25 : Ref sig .tc := ⟨.hbm, 47, rfl⟩
abbrev main_v0 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2000x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S768x356_S768x256_0_0 : S768x356.Slices ![0, 0] S768x256
  transposes_S768x256_S256x768_1_0 : S768x256.Transposes [1, 0] S256x768
  bcast_S_S128x768 : S_.BroadcastsInDim S128x768 (![] : Fin 0 → Fin S128x768.rank)
  slices_S768x356_S768x100_0_256 : S768x356.Slices ![0, 256] S768x100
  transposes_S768x100_S100x768_1_0 : S768x100.Transposes [1, 0] S100x768
  bcast_S_S1 : S_.BroadcastsInDim S1 (![] : Fin 0 → Fin S1.rank)
  transposes_S256x512_S512x256_1_0 : S256x512.Transposes [1, 0] S512x256
  bcast_S_S1x128 : S_.BroadcastsInDim S1x128 (![] : Fin 0 → Fin S1x128.rank)
  bcast_S_S100 : S_.BroadcastsInDim S100 (![] : Fin 0 → Fin S100.rank)
  concatenates_S1_S1_S2_d0 : Shape.Concatenates [S1, S1] S2 0
  shapeCasts_S10000_S10000x1 : S10000.ShapeCasts S10000x1
  shapeCasts_S768_S1x768 : S768.ShapeCasts S1x768
  shapeCasts_S256_S1x256 : S256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2000x768 : S1x768.Broadcasts S2000x768
  slices_S2000x768_o0_0_S2000x256 : S2000x768.Slices ![0, 0] S2000x256
  slices_S2000x768_o0_256_S2000x256 : S2000x768.Slices ![0, 256] S2000x256
  slices_S2000x768_o0_512_S2000x256 : S2000x768.Slices ![0, 512] S2000x256
  inb_S2000x512_S2000x512_0_0 : ∀ a, (![0, 0] : Fin 2 → Nat) a + S2000x512.size a ≤ S2000x512.size a
  h_S2000x512 : 0 < S2000x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S128x768_S1_S100x768_01_n_0_0_wf : ScatterDims.WF S128x768 S1 S100x768 [0, 1] [] [0] 0
  scatter_S1x128_S2_S100_0_0_01_0_wf : ScatterDims.WF S1x128 S2 S100 [0] [0] [0, 1] 0
  dot_S2000x256_S256x768_S2000x768_1_0_0_1_n_n_wf : DotDims.WF S2000x256 S256x768 S2000x768 [1] [0] [0] [1] [] []
  dot_S2000x128_S128x768_S2000x768_1_0_0_1_n_n_wf : DotDims.WF S2000x128 S128x768 S2000x768 [1] [0] [0] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S10000x1.size a
  hwx0_0 : ∀ i : grid0.Coords, EltTy.bits .f32 = 32 ∨ (Rect.block (s := S10000x1) S2000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S10000x1.size a
  hwx0_1 : ∀ i : grid0.Coords, EltTy.bits .f32 = 32 ∨ (Rect.block (s := S10000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S10000x256.size a
  hwx0_3 : ∀ i : grid0.Coords, EltTy.bits .f32 = 32 ∨ (Rect.block (s := S10000x256) S2000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S10000x256.size a
  hwx0_4 : ∀ i : grid0.Coords, EltTy.bits .f32 = 32 ∨ (Rect.block (s := S10000x256) S2000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S10000x512.size a
  hwx0_5 : ∀ i : grid0.Coords, EltTy.bits .f32 = 32 ∨ (Rect.block (s := S10000x512) S2000x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x768.size a ≤ S256x768.size a
  hwx0_7 : ∀ i : grid0.Coords, EltTy.bits .f32 = 32 ∨ (Rect.block (s := S256x768) S256x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x768.size a ≤ S128x768.size a
  hwx0_8 : ∀ i : grid0.Coords, EltTy.bits .f32 = 32 ∨ (Rect.block (s := S128x768) S128x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x768.size a ≤ S256x768.size a
  hwx0_9 : ∀ i : grid0.Coords, EltTy.bits .f32 = 32 ∨ (Rect.block (s := S256x768) S256x768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S512x256.size a
  hwx0_10 : ∀ i : grid0.Coords, EltTy.bits .f32 = 32 ∨ (Rect.block (s := S512x256) S512x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x768.size a ≤ S1x768.size a
  hwx0_11 : ∀ i : grid0.Coords, EltTy.bits .f32 = 32 ∨ (Rect.block (s := S1x768) S1x768.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x768.size a ≤ S1x768.size a
  hwx0_12 : ∀ i : grid0.Coords, EltTy.bits .f32 = 32 ∨ (Rect.block (s := S1x768) S1x768.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x256.size a ≤ S10000x256.size a
  hwx0_14 : ∀ i : grid0.Coords, EltTy.bits .f32 = 32 ∨ (Rect.block (s := S10000x256) S2000x256.size (cc0_transform_14 i) (hinb0_14 i)).WholeWords (EltTy.packing .f32)

variable [Facts₀]

def scatter_S128x768_S1_S100x768_01_n_0_0 : ScatterDims S128x768 S1 S100x768 where
  updateWindowDims := [0, 1]
  insertedWindowDims := []
  scatterDimsToOperandDims := [0]
  indexVectorDim := 0
  wf := scatter_S128x768_S1_S100x768_01_n_0_0_wf
def scatter_S1x128_S2_S100_0_0_01_0 : ScatterDims S1x128 S2 S100 where
  updateWindowDims := [0]
  insertedWindowDims := [0]
  scatterDimsToOperandDims := [0, 1]
  indexVectorDim := 0
  wf := scatter_S1x128_S2_S100_0_0_01_0_wf
def dot_S2000x256_S256x768_S2000x768_1_0_0_1_n_n : DotDims S2000x256 S256x768 S2000x768 where
  lhsContracting := [1]
  rhsContracting := [0]
  lhsNonContracting := [0]
  rhsNonContracting := [1]
  lhsBatch := []
  rhsBatch := []
  wf := dot_S2000x256_S256x768_S2000x768_1_0_0_1_n_n_wf
def dot_S2000x128_S128x768_S2000x768_1_0_0_1_n_n : DotDims S2000x128 S128x768 S2000x768 where
  lhsContracting := [1]
  rhsContracting := [0]
  lhsNonContracting := [0]
  rhsNonContracting := [1]
  lhsBatch := []
  rhsBatch := []
  wf := dot_S2000x128_S128x768_S2000x768_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_call0_v21) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v22) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v20) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S2000x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S2000x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S2000x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v1) S256x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v6) S128x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v7) S256x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v8) S512x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v23) S1x768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v24) S1x768.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_call0_v25) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v0) S2000x256.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000 : Shape := ⟨1, ![10000]⟩
abbrev S10000x512 : Shape := ⟨2, ![10000, 512]⟩
abbrev S100 : Shape := ⟨1, ![100]⟩
abbrev S768x356 : Shape := ⟨2, ![768, 356]⟩
abbrev S768x256 : Shape := ⟨2, ![768, 256]⟩
abbrev S768 : Shape := ⟨1, ![768]⟩
abbrev S256x512 : Shape := ⟨2, ![256, 512]⟩
abbrev S256 : Shape := ⟨1, ![256]⟩
abbrev S10000x1 : Shape := ⟨2, ![10000, 1]⟩
abbrev S1x100 : Shape := ⟨2, ![1, 100]⟩
abbrev S10000x100 : Shape := ⟨2, ![10000, 100]⟩
abbrev S10000x356 : Shape := ⟨2, ![10000, 356]⟩
abbrev S356x768 : Shape := ⟨2, ![356, 768]⟩
abbrev S10000x768 : Shape := ⟨2, ![10000, 768]⟩
abbrev S1x768 : Shape := ⟨2, ![1, 768]⟩
abbrev S256x768 : Shape := ⟨2, ![256, 768]⟩
abbrev S_ : Shape := ⟨0, ![]⟩
abbrev S512x256 : Shape := ⟨2, ![512, 256]⟩
abbrev S1x256 : Shape := ⟨2, ![1, 256]⟩

abbrev nBuf : Space → Nat
  | .hbm => 73
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x256, .f32⟩
  | .hbm, ⟨2, _⟩ => ⟨S10000, .f32⟩
  | .hbm, ⟨3, _⟩ => ⟨S10000, .f32⟩
  | .hbm, ⟨4, _⟩ => ⟨S10000x512, .f32⟩
  | .hbm, ⟨5, _⟩ => ⟨S100, .f32⟩
  | .hbm, ⟨6, _⟩ => ⟨S100, .f32⟩
  | .hbm, ⟨7, _⟩ => ⟨S768x356, .f32⟩
  | .hbm, ⟨8, _⟩ => ⟨S768x256, .f32⟩
  | .hbm, ⟨9, _⟩ => ⟨S768, .f32⟩
  | .hbm, ⟨10, _⟩ => ⟨S768, .f32⟩
  | .hbm, ⟨11, _⟩ => ⟨S256x512, .f32⟩
  | .hbm, ⟨12, _⟩ => ⟨S256, .f32⟩
  | .hbm, ⟨13, _⟩ => ⟨S10000, .f32⟩
  | .hbm, ⟨14, _⟩ => ⟨S10000x1, .f32⟩
  | .hbm, ⟨15, _⟩ => ⟨S1x100, .f32⟩
  | .hbm, ⟨16, _⟩ => ⟨S10000x100, .f32⟩
  | .hbm, ⟨17, _⟩ => ⟨S10000x100, .f32⟩
  | .hbm, ⟨18, _⟩ => ⟨S10000x100, .f32⟩
  | .hbm, ⟨19, _⟩ => ⟨S1x100, .f32⟩
  | .hbm, ⟨20, _⟩ => ⟨S10000x100, .f32⟩
  | .hbm, ⟨21, _⟩ => ⟨S10000x100, .f32⟩
  | .hbm, ⟨22, _⟩ => ⟨S10000x100, .f32⟩
  | .hbm, ⟨23, _⟩ => ⟨S10000x356, .f32⟩
  | .hbm, ⟨24, _⟩ => ⟨S356x768, .f32⟩
  | .hbm, ⟨25, _⟩ => ⟨S10000x768, .f32⟩
  | .hbm, ⟨26, _⟩ => ⟨S1x768, .f32⟩
  | .hbm, ⟨27, _⟩ => ⟨S10000x768, .f32⟩
  | .hbm, ⟨28, _⟩ => ⟨S10000x768, .f32⟩
  | .hbm, ⟨29, _⟩ => ⟨S256x768, .f32⟩
  | .hbm, ⟨30, _⟩ => ⟨S10000x768, .f32⟩
  | .hbm, ⟨31, _⟩ => ⟨S1x768, .f32⟩
  | .hbm, ⟨32, _⟩ => ⟨S10000x768, .f32⟩
  | .hbm, ⟨33, _⟩ => ⟨S10000x768, .f32⟩
  | .hbm, ⟨34, _⟩ => ⟨S10000x256, .f32⟩
  | .hbm, ⟨35, _⟩ => ⟨S10000x256, .f32⟩
  | .hbm, ⟨36, _⟩ => ⟨S10000x256, .f32⟩
  | .hbm, ⟨37, _⟩ => ⟨S10000x256, .f32⟩
  | .hbm, ⟨38, _⟩ => ⟨S10000x256, .f32⟩
  | .hbm, ⟨39, _⟩ => ⟨S10000x256, .f32⟩
  | .hbm, ⟨40, _⟩ => ⟨S10000x256, .f32⟩
  | .hbm, ⟨41, _⟩ => ⟨S10000x256, .f32⟩
  | .hbm, ⟨42, _⟩ => ⟨S10000x256, .f32⟩
  | .hbm, ⟨43, _⟩ => ⟨S_, .f32⟩
  | .hbm, ⟨44, _⟩ => ⟨S10000x256, .f32⟩
  | .hbm, ⟨45, _⟩ => ⟨S10000x256, .f32⟩
  | .hbm, ⟨46, _⟩ => ⟨S_, .f32⟩
  | .hbm, ⟨47, _⟩ => ⟨S10000x256, .f32⟩
  | .hbm, ⟨48, _⟩ => ⟨S10000x256, .f32⟩
  | .hbm, ⟨49, _⟩ => ⟨S10000x256, .f32⟩
  | .hbm, ⟨50, _⟩ => ⟨S10000x256, .f32⟩
  | .hbm, ⟨51, _⟩ => ⟨S10000x256, .f32⟩
  | .hbm, ⟨52, _⟩ => ⟨S_, .f32⟩
  | .hbm, ⟨53, _⟩ => ⟨S10000x256, .f32⟩
  | .hbm, ⟨54, _⟩ => ⟨S10000x256, .f32⟩
  | .hbm, ⟨55, _⟩ => ⟨S_, .f32⟩
  | .hbm, ⟨56, _⟩ => ⟨S10000x256, .f32⟩
  | .hbm, ⟨57, _⟩ => ⟨S10000x256, .f32⟩
  | .hbm, ⟨58, _⟩ => ⟨S10000x256, .f32⟩
  | .hbm, ⟨59, _⟩ => ⟨S10000x256, .f32⟩
  | .hbm, ⟨60, _⟩ => ⟨S10000x256, .f32⟩
  | .hbm, ⟨61, _⟩ => ⟨S_, .f32⟩
  | .hbm, ⟨62, _⟩ => ⟨S10000x256, .f32⟩
  | .hbm, ⟨63, _⟩ => ⟨S10000x256, .f32⟩
  | .hbm, ⟨64, _⟩ => ⟨S10000x256, .f32⟩
  | .hbm, ⟨65, _⟩ => ⟨S10000x256, .f32⟩
  | .hbm, ⟨66, _⟩ => ⟨S10000x256, .f32⟩
  | .hbm, ⟨67, _⟩ => ⟨S512x256, .f32⟩
  | .hbm, ⟨68, _⟩ => ⟨S10000x256, .f32⟩
  | .hbm, ⟨69, _⟩ => ⟨S10000x256, .f32⟩
  | .hbm, ⟨70, _⟩ => ⟨S1x256, .f32⟩
  | .hbm, ⟨71, _⟩ => ⟨S10000x256, .f32⟩
  | .hbm, ⟨72, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst : Ref sig .tc := ⟨.hbm, 43, rfl⟩
abbrev main_v30 : Ref sig .tc := ⟨.hbm, 44, rfl⟩
abbrev main_v31 : Ref sig .tc := ⟨.hbm, 45, rfl⟩
abbrev main_cst_0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_1 : Ref sig .tc := ⟨.hbm, 52, rfl⟩
abbrev main_v37 : Ref sig .tc := ⟨.hbm, 53, rfl⟩
abbrev main_v38 : Ref sig .tc := ⟨.hbm, 54, rfl⟩
abbrev main_cst_2 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_3 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]

class Facts₀ : Prop where
  bcast_S10000_S10000x1_0 : S10000.BroadcastsInDim S10000x1 (![0] : Fin 1 → Fin S10000x1.rank)
  bcast_S100_S1x100_1 : S100.BroadcastsInDim S1x100 (![1] : Fin 1 → Fin S1x100.rank)
  bcast_S10000x1_S10000x100_0_1 : S10000x1.BroadcastsInDim S10000x100 (![0, 1] : Fin 2 → Fin S10000x100.rank)
  bcast_S1x100_S10000x100_0_1 : S1x100.BroadcastsInDim S10000x100 (![0, 1] : Fin 2 → Fin S10000x100.rank)
  concatenates_S10000x256_S10000x100_S10000x356_d1 : Shape.Concatenates [S10000x256, S10000x100] S10000x356 1
  transposes_S768x356_S356x768_1_0 : S768x356.Transposes [1, 0] S356x768
  bcast_S768_S1x768_1 : S768.BroadcastsInDim S1x768 (![1] : Fin 1 → Fin S1x768.rank)
  bcast_S1x768_S10000x768_0_1 : S1x768.BroadcastsInDim S10000x768 (![0, 1] : Fin 2 → Fin S10000x768.rank)
  transposes_S768x256_S256x768_1_0 : S768x256.Transposes [1, 0] S256x768
  slices_S10000x768_S10000x256_0_0 : S10000x768.Slices ![0, 0] S10000x256
  slices_S10000x768_S10000x256_0_256 : S10000x768.Slices ![0, 256] S10000x256
  slices_S10000x768_S10000x256_0_512 : S10000x768.Slices ![0, 512] S10000x256
  bcast_S_S10000x256 : S_.BroadcastsInDim S10000x256 (![] : Fin 0 → Fin S10000x256.rank)
  transposes_S256x512_S512x256_1_0 : S256x512.Transposes [1, 0] S512x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  dot_S10000x356_S356x768_S10000x768_1_0_0_1_n_n_wf : DotDims.WF S10000x356 S356x768 S10000x768 [1] [0] [0] [1] [] []
  dot_S10000x256_S256x768_S10000x768_1_0_0_1_n_n_wf : DotDims.WF S10000x256 S256x768 S10000x768 [1] [0] [0] [1] [] []
  dot_S10000x512_S512x256_S10000x256_1_0_0_1_n_n_wf : DotDims.WF S10000x512 S512x256 S10000x256 [1] [0] [0] [1] [] []

variable [Facts₀]

def dot_S10000x356_S356x768_S10000x768_1_0_0_1_n_n : DotDims S10000x356 S356x768 S10000x768 where
  lhsContracting := [1]
  rhsContracting := [0]
  lhsNonContracting := [0]
  rhsNonContracting := [1]
  lhsBatch := []
  rhsBatch := []
  wf := dot_S10000x356_S356x768_S10000x768_1_0_0_1_n_n_wf
def dot_S10000x256_S256x768_S10000x768_1_0_0_1_n_n : DotDims S10000x256 S256x768 S10000x768 where
  lhsContracting := [1]
  rhsContracting := [0]
  lhsNonContracting := [0]
  rhsNonContracting := [1]
  lhsBatch := []
  rhsBatch := []
  wf := dot_S10000x256_S256x768_S10000x768_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.GruSpec.lean ====
/-
  The memory updater's result, entry by entry, on the extended reals.

  One row p of the batch is updated by a gated recurrent cell. The cell's input is the row of `mem_input` (256 wide)
  followed by a time encoding (100 wide): feature j is cos ((ts p - mem_ts p) · time_w j + time_b j). With
  gi o = (row of the input) · (row o of W_ih) + b_ih o and gh o = (row of mem) · (row o of W_hh) + b_hh o, for
  o < 768 read as three gates of 256 columns,
      r = logistic (gi q + gh q),   z = logistic (gi (256+q) + gh (256+q)),   n = tanh (gi (512+q) + r · gh (512+q)),
  the new memory is (1 - z) · n + z · mem(p, q), and the result adds row p of h times row q of W_map, and b_map q.

  The contraction of the 356-wide input against a row of W_ih is written here as its head (the 256 columns of
  `mem_input`) plus its tail (the 100 time features). A contraction over all 356 columns is this by splitting the sum
  (`sum_concat`), and a contraction over a tail padded with zero weights to 128 is the tail, because a term with a zero
  factor vanishes on the extended reals whatever the other factor is (`sum_padded`). Neither needs finiteness.
-/
import Idealize.ShloMosaic.PureOps.Ideal
import Idealize.ShloMosaic.Lib.ValueIdx
import Mathlib.Algebra.BigOperators.Fin

noncomputable section

namespace Cert.GruSpec

open Idealize.ShloMosaic Idealize.ShloMosaic.ValueIdx

/-- A vector and a matrix of extended reals over literal extents. -/
abbrev Arr1 (a : ℕ) : Type := (⟨1, ![a]⟩ : Shape).Idx → EReal
abbrev Arr2 (a b : ℕ) : Type := (⟨2, ![a, b]⟩ : Shape).Idx → EReal

/-- The number one, as the single-precision pattern both programs spell it with. -/
abbrev one32 : EReal := Ideal.ofBits .f32 0x3F800000#32

/-- Column c of `mem_input` as a column of the joined 356-wide input. -/
def hd (c : Fin 256) : Fin 356 := ⟨c.val, by have := c.isLt; omega⟩
/-- Time feature j as a column of the joined 356-wide input. -/
def tl (j : Fin 100) : Fin 356 := ⟨256 + j.val, by have := j.isLt; omega⟩
/-- Time feature j among the 128 padded ones. -/
def pd (j : Fin 100) : Fin 128 := ⟨j.val, by have := j.isLt; omega⟩
/-- Column q of the gate that starts at column k of the 768. -/
def gate (k : ℕ) (hk : k + 256 ≤ 768) (q : Fin 256) : Fin 768 := ⟨k + q.val, by have := q.isLt; omega⟩

/-- The cell, from the two pre-activations of a row (768 wide each), the old memory entry, the projected node
    feature and its bias. -/
def gru (gi gh : Fin 768 → EReal) (mq hm bm : EReal) (q : Fin 256) : EReal :=
  let r := Ideal.logistic (gi (gate 0 (by omega) q) + gh (gate 0 (by omega) q))
  let z := Ideal.logistic (gi (gate 256 (by omega) q) + gh (gate 256 (by omega) q))
  let n := Ideal.tanh (gi (gate 512 (by omega) q) + r * gh (gate 512 (by omega) q))
  (((one32 - z) * n + z * mq) + hm) + bm

section
variable (X Mm : Arr2 10000 256) (ts mts : Arr1 10000) (H : Arr2 10000 512) (tw tb : Arr1 100)
  (Wih : Arr2 768 356) (Whh : Arr2 768 256) (bih bhh : Arr1 768) (Wmap : Arr2 256 512) (bmap : Arr1 256)

/-- Time feature j of row p. -/
def tfeat (p : Fin 10000) (j : Fin 100) : EReal :=
  Ideal.cos ((ts (ix1 p) - mts (ix1 p)) * tw (ix1 j) + tb (ix1 j))

/-- The input pre-activation of row p: head plus tail, plus the bias. -/
def giSpec (p : Fin 10000) (o : Fin 768) : EReal :=
  ((∑ c : Fin 256, X (ix2 p c) * Wih (ix2 o (hd c))) + ∑ j : Fin 100, tfeat ts mts tw tb p j * Wih (ix2 o (tl j)))
    + bih (ix1 o)

/-- The hidden pre-activation of row p. -/
def ghSpec (p : Fin 10000) (o : Fin 768) : EReal :=
  (∑ c : Fin 256, Mm (ix2 p c) * Whh (ix2 o c)) + bhh (ix1 o)

/-- Row p of the node features against row q of the map. -/
def hmSpec (p : Fin 10000) (q : Fin 256) : EReal := ∑ c : Fin 512, H (ix2 p c) * Wmap (ix2 q c)

/-- The result array as one function of the thirteen argument arrays. -/
def G : Arr2 10000 256 := fun i =>
  gru (giSpec X ts mts tw tb Wih bih (i 0)) (ghSpec Mm Whh bhh (i 0)) (Mm (ix2 (i 0) (i 1)))
    (hmSpec H Wmap (i 0) (i 1)) (bmap (ix1 (i 1))) (i 1)

end

/-- A sum over the 356 joined columns is the sum over the 256 head columns plus the sum over the 100 tail ones. -/
theorem sum_concat (f : Fin 356 → EReal) : ∑ k, f k = (∑ c : Fin 256, f (hd c)) + ∑ j : Fin 100, f (tl j) :=
  Fin.sum_univ_add (a := 256) (b := 100) f

/-- A sum over 128 terms whose last 28 vanish is the sum of the first 100. -/
theorem sum_padded (f : Fin 128 → EReal) (hz : ∀ j : Fin 128, 100 ≤ j.val → f j = 0) :
    ∑ j, f j = ∑ j : Fin 100, f (pd j) := by
  refine (Fin.sum_univ_add (a := 100) (b := 28) f).trans ?_
  have h0 : ∀ i : Fin 28, f (Fin.natAdd 100 i) = 0 := fun i => hz _ (by show 100 ≤ 100 + i.val; omega)
  rw [Finset.sum_eq_zero (fun i _ => h0 i), add_zero]
  rfl

end Cert.GruSpec

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.KernelPayload.lean ====
/-
  The kernel body's stored value, read at one entry of the output block.

  The body handles a block of 2000 rows. From the blocks it loads (two time columns, the padded time weights and biases,
  the rows of the input, the memory and the node features, and the four weight matrices with their biases) it stores one
  [2000, 256] value. Entry (p, q) of that value is the gated cell of GruSpec applied to row p's two pre-activations: the
  input one is the row of the input against the 256-row weight block plus the 128 cosine features against the padded
  128-row block plus the bias row, the hidden one the memory row against its weight block plus its bias row; a narrowing
  to bf16 is the identity on extended reals and each matrix product into the zero matrix is a plain sum of products.
-/
import proofs.«122590_g31224412242761_cont_9to1_2055_5_alg».proof.Proof.Gen.KernelIdeal.Frame
import proofs.«122590_g31224412242761_cont_9to1_2055_5_alg».proof.Proof.GruSpec
import proofs.«122590_g31224412242761_cont_9to1_2055_5_alg».proof.Proof.LibPlainDot
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.GruSpec

section layout
variable {α : Type}

/-- A row [1, B] repeated down A rows, read at (p, o), is the row's entry o. -/
theorem bcast_row {A B : ℕ} (v : (⟨2, ![1, B]⟩ : Shape).Idx → α) (h : (⟨2, ![1, B]⟩ : Shape).Broadcasts ⟨2, ![A, B]⟩)
    (p : Fin A) (o : Fin B) : broadcastTo ⟨2, ![A, B]⟩ v h (ix2 p o) = v (ix2 0 o) :=
  broadcastTo_apply v h (ix2 p o) (ix2 0 o) fun a => match a with
    | ⟨0, _⟩ => rfl
    | ⟨1, _⟩ => by
        show o.val = if B = 1 then 0 else o.val
        split_ifs with hB
        · subst hB; exact Fin.val_eq_zero o
        · rfl

/-- A column [A, 1] repeated across B columns, read at (p, j), is the column's entry p. -/
theorem bcast_col {A B : ℕ} (v : (⟨2, ![A, 1]⟩ : Shape).Idx → α) (h : (⟨2, ![A, 1]⟩ : Shape).Broadcasts ⟨2, ![A, B]⟩)
    (p : Fin A) (j : Fin B) : broadcastTo ⟨2, ![A, B]⟩ v h (ix2 p j) = v (ix2 p 0) :=
  broadcastTo_apply v h (ix2 p j) (ix2 p 0) fun a => match a with
    | ⟨0, _⟩ => by
        show p.val = if A = 1 then 0 else p.val
        split_ifs with hA
        · subst hA; exact Fin.val_eq_zero p
        · rfl
    | ⟨1, _⟩ => rfl

/-- The 256 columns of a [2000, 768] value that start at column k, read at (p, q), are column k + q. -/
theorem slice_gate (k : ℕ) (hk : k + 256 ≤ 768) (v : (⟨2, ![2000, 768]⟩ : Shape).Idx → α)
    (h : (⟨2, ![2000, 768]⟩ : Shape).Slices ![0, k] ⟨2, ![2000, 256]⟩) (p : Fin 2000) (q : Fin 256) :
    extractStridedSlice ⟨2, ![2000, 256]⟩ ![0, k] v h (ix2 p q) = v (ix2 p (gate k hk q)) :=
  extractStridedSlice_apply ![0, k] v h (ix2 p q) (ix2 p (gate k hk q)) fun a => match a with
    | ⟨0, _⟩ => by show p.val = 0 + p.val; omega
    | ⟨1, _⟩ => rfl

end layout

/-- The three printed product records are the plain ones. -/
theorem dot_256_768 : dot_S2000x256_S256x768_S2000x768_1_0_0_1_n_n = DotDims.plain 2000 256 768 := rfl
theorem dot_128_768 : dot_S2000x128_S128x768_S2000x768_1_0_0_1_n_n = DotDims.plain 2000 128 768 := rfl
theorem dot_512_256 : dot_S2000x512_S512x256_S2000x256_1_0_0_1_n_n = DotDims.plain 2000 512 256 := rfl

/-- The input pre-activation of row p at column o. -/
theorem pre_input (v0 v2 : Vec Ideal S2000x1 .f32) (v5 v10 : Vec Ideal S1x128 .f32) (v15 : Vec Ideal S2000x256 .f32)
    (v18 : Vec Ideal S256x768 .f32) (v23 : Vec Ideal S128x768 .f32) (v28 : Vec Ideal S1x768 .f32) (p : Fin 2000) (o : Fin 768) :
    k0_pay2 v0 v2 v5 v10 v15 v18 v23 v28 (ix2 p o)
      = ((∑ k : Fin 256, v15 (ix2 p k) * v18 (ix2 k o))
          + ∑ j : Fin 128, Ideal.cos ((v0 (ix2 p 0) - v2 (ix2 p 0)) * v5 (ix2 0 j) + v10 (ix2 0 j)) * v23 (ix2 j o))
        + v28 (ix2 0 o) := by
  unfold k0_pay2
  simp only [addf_apply, shapeCast_self, dot_256_768, dot_128_768]
  rw [Cert.PlainDot.matmul_zero_plain_apply, Cert.PlainDot.matmul_zero_plain_apply, bcast_row]
  simp only [truncf_apply]
  congr 2
  refine Finset.sum_congr rfl fun j _ => ?_
  refine congrArg₂ (· * ·) (congrArg Ideal.cos ?_) rfl
  rw [addf_apply, mulf_apply, bcast_col, bcast_row, bcast_row, subf_apply]

/-- The logistic and the hyperbolic tangent of a vector, entry by entry. -/
theorem logistic_at {s : Shape} (x : FVec Ideal s .f32) (i : s.Idx) : logistic x i = Ideal.logistic (x i) := rfl
theorem tanh_at {s : Shape} (x : FVec Ideal s .f32) (i : s.Idx) : tanh x i = Ideal.tanh (x i) := rfl

/-- The stored value at (p, q), from the input pre-activation `v31` and the loaded blocks: the cell of row p. -/
theorem stored_apply (v16 : Vec Ideal S2000x256 .f32) (v31 : FVec Ideal S2000x768 .f32) (v32 : FVec Ideal S2000x256 .bf16)
    (v35 : FVec Ideal S256x768 .bf16) (v37 : Vec Ideal S1x768 .f32) (v59 : Vec Ideal S2000x512 .f32)
    (v61 : Vec Ideal S512x256 .f32) (v66 : Vec Ideal S1x256 .f32) (p : Fin 2000) (q : Fin 256) :
    k0_pay1 v16 v31 v32 v35 (constant (F := Ideal) S2000x768 .f32 0x00000000#32) v37 v59 v61 v66 (ix2 p q)
      = gru (fun o => v31 (ix2 p o)) (fun o => (∑ k : Fin 256, v32 (ix2 p k) * v35 (ix2 k o)) + v37 (ix2 0 o))
          (v16 (ix2 p q)) (∑ k : Fin 512, v59 (ix2 p k) * v61 (ix2 k q)) (v66 (ix2 0 q)) q := by
  unfold k0_pay1 gru
  simp only [addf_apply, mulf_apply, subf_apply, logistic_at, tanh_at, shapeCast_self, dot_256_768, dot_512_256,
    broadcast_apply, slice_gate 0 (by omega), slice_gate 256 (by omega), slice_gate 512 (by omega),
    Cert.PlainDot.matmul_zero_plain_apply, bcast_row, truncf_apply]
  rfl

/-- What the body leaves in the output block, at (p, q): the cell of row p, from the loaded blocks. -/
theorem out_apply (x0 x1 : Vec Ideal S2000x1 .f32) (x2 : Vec Ideal S1x128 .f32) (x3 x4 : Vec Ideal S2000x256 .f32)
    (x5 : Vec Ideal S2000x512 .f32) (x6 : Vec Ideal S1x128 .f32) (x7 : Vec Ideal S256x768 .f32) (x8 : Vec Ideal S128x768 .f32)
    (x9 : Vec Ideal S256x768 .f32) (x10 : Vec Ideal S512x256 .f32) (x11 x12 : Vec Ideal S1x768 .f32)
    (x13 : Vec Ideal S1x256 .f32) (p : Fin 2000) (q : Fin 256) :
    out0_14 x0 x1 x2 x3 x4 x5 x6 x7 x8 x9 x10 x11 x12 x13 (ix2 p q)
      = gru (fun o => ((∑ k : Fin 256, x3 (ix2 p k) * x7 (ix2 k o))
              + ∑ j : Fin 128, Ideal.cos ((x0 (ix2 p 0) - x1 (ix2 p 0)) * x6 (ix2 0 j) + x2 (ix2 0 j)) * x8 (ix2 j o))
            + x11 (ix2 0 o))
          (fun o => (∑ k : Fin 256, x4 (ix2 p k) * x9 (ix2 k o)) + x12 (ix2 0 o))
          (x4 (ix2 p q)) (∑ k : Fin 512, x5 (ix2 p k) * x10 (ix2 k q)) (x13 (ix2 0 q)) q := by
  have hz : (![0, 0] : Fin 2 → ℕ) = fun _ => 0 := by funext a; fin_cases a <;> rfl
  unfold out0_14
  rw [View.canon_unit_zero hz]
  simp only [View.ld_unit_zero (S := S2000x1) hz, View.ld_unit_zero (S := S1x128) hz, View.ld_unit_zero (S := S2000x256) hz,
    View.ld_unit_zero (S := S256x768) hz, View.ld_unit_zero (S := S128x768) hz, View.ld_unit_zero (S := S1x768) hz,
    View.ld_unit_zero (S := S2000x512) hz, View.ld_unit_zero (S := S512x256) hz, View.ld_unit_zero (S := S1x256) hz]
  rw [stored_apply]
  unfold k0_pay3 k0_pay4
  simp only [pre_input, truncf_apply, shapeCast_self]

end Cert.KernelIdeal.Payload

end
-- ==== Proof.BlockLaw.lean ====
/-
  One block of the kernel's output is the corresponding block of G.

  Suppose the fourteen blocks the body loads at row-block b (b ≤ 4) are what the launch stages there: rows
  b·2000 … b·2000 + 1999 of ts, mem_ts, mem_input, mem and h; the whole time weights and time biases padded with zeros
  from 100 to 128 entries; the transposed head (columns 0 … 255) and the transposed tail (columns 256 … 355, padded with
  28 zero rows) of W_ih; the transposes of W_hh and W_map; and the three bias rows. Then entry (p, q) of what the body
  stores is G at (b·2000 + p, q). The only step that is not a renaming: the 28 padded terms of the time-feature
  product have a zero weight, so they vanish and the 128-term sum is the 100-term tail of the joined contraction.
-/
import proofs.«122590_g31224412242761_cont_9to1_2055_5_alg».proof.Proof.KernelPayload

noncomputable section

namespace Cert.KernelIdeal.Payload

open Cert.KernelIdeal Cert.KernelIdeal.Gen Idealize.ShloMosaic Idealize.ShloMosaic.ValueIdx Cert.GruSpec

/-- Row p of row-block b, as a row of the whole batch. -/
def row (b : ℕ) (hb : b ≤ 4) (p : Fin 2000) : Fin 10000 := ⟨b * 2000 + p.val, by have := p.isLt; omega⟩

theorem block_law (X Mm : Arr2 10000 256) (ts mts : Arr1 10000) (H : Arr2 10000 512) (tw tb : Arr1 100)
    (Wih : Arr2 768 356) (Whh : Arr2 768 256) (bih bhh : Arr1 768) (Wmap : Arr2 256 512) (bmap : Arr1 256)
    (x0 x1 : Vec Ideal S2000x1 .f32) (x2 : Vec Ideal S1x128 .f32) (x3 x4 : Vec Ideal S2000x256 .f32)
    (x5 : Vec Ideal S2000x512 .f32) (x6 : Vec Ideal S1x128 .f32) (x7 : Vec Ideal S256x768 .f32) (x8 : Vec Ideal S128x768 .f32)
    (x9 : Vec Ideal S256x768 .f32) (x10 : Vec Ideal S512x256 .f32) (x11 x12 : Vec Ideal S1x768 .f32)
    (x13 : Vec Ideal S1x256 .f32) (b : ℕ) (hb : b ≤ 4)
    (h0 : ∀ p : Fin 2000, x0 (ix2 p 0) = ts (ix1 (row b hb p)))
    (h1 : ∀ p : Fin 2000, x1 (ix2 p 0) = mts (ix1 (row b hb p)))
    (h2 : ∀ j : Fin 128, x2 (ix2 0 j) = if h : j.val < 100 then tb (ix1 ⟨j.val, h⟩) else 0)
    (h3 : ∀ (p : Fin 2000) (k : Fin 256), x3 (ix2 p k) = X (ix2 (row b hb p) k))
    (h4 : ∀ (p : Fin 2000) (k : Fin 256), x4 (ix2 p k) = Mm (ix2 (row b hb p) k))
    (h5 : ∀ (p : Fin 2000) (k : Fin 512), x5 (ix2 p k) = H (ix2 (row b hb p) k))
    (h6 : ∀ j : Fin 128, x6 (ix2 0 j) = if h : j.val < 100 then tw (ix1 ⟨j.val, h⟩) else 0)
    (h7 : ∀ (k : Fin 256) (o : Fin 768), x7 (ix2 k o) = Wih (ix2 o (hd k)))
    (h8 : ∀ (j : Fin 128) (o : Fin 768), x8 (ix2 j o) = if h : j.val < 100 then Wih (ix2 o (tl ⟨j.val, h⟩)) else 0)
    (h9 : ∀ (k : Fin 256) (o : Fin 768), x9 (ix2 k o) = Whh (ix2 o k))
    (h10 : ∀ (k : Fin 512) (q : Fin 256), x10 (ix2 k q) = Wmap (ix2 q k))
    (h11 : ∀ o : Fin 768, x11 (ix2 0 o) = bih (ix1 o))
    (h12 : ∀ o : Fin 768, x12 (ix2 0 o) = bhh (ix1 o))
    (h13 : ∀ q : Fin 256, x13 (ix2 0 q) = bmap (ix1 q))
    (p : Fin 2000) (q : Fin 256) :
    out0_14 x0 x1 x2 x3 x4 x5 x6 x7 x8 x9 x10 x11 x12 x13 (ix2 p q)
      = G X Mm ts mts H tw tb Wih Whh bih bhh Wmap bmap (ix2 (row b hb p) q) := by
  rw [out_apply]
  show _ = gru (giSpec X ts mts tw tb Wih bih (row b hb p)) (ghSpec Mm Whh bhh (row b hb p)) (Mm (ix2 (row b hb p) q))
      (hmSpec H Wmap (row b hb p) q) (bmap (ix1 q)) q
  have hgi : (fun o : Fin 768 => ((∑ k : Fin 256, x3 (ix2 p k) * x7 (ix2 k o))
        + ∑ j : Fin 128, Ideal.cos ((x0 (ix2 p 0) - x1 (ix2 p 0)) * x6 (ix2 0 j) + x2 (ix2 0 j)) * x8 (ix2 j o))
        + x11 (ix2 0 o)) = giSpec X ts mts tw tb Wih bih (row b hb p) := by
    funext o
    unfold giSpec tfeat
    rw [h11 o]
    congr 2
    · exact Finset.sum_congr rfl fun k _ => by rw [h3, h7]
    · rw [sum_padded _ (fun j hj => by rw [h8, dif_neg (by omega)]; exact mul_zero _)]
      refine Finset.sum_congr rfl fun j _ => ?_
      rw [h0, h1, h6, h2, h8, dif_pos (show (pd j).val < 100 from j.isLt), dif_pos (show (pd j).val < 100 from j.isLt),
        dif_pos (show (pd j).val < 100 from j.isLt)]
      rfl
  have hgh : (fun o : Fin 768 => (∑ k : Fin 256, x4 (ix2 p k) * x9 (ix2 k o)) + x12 (ix2 0 o))
      = ghSpec Mm Whh bhh (row b hb p) := by
    funext o
    unfold ghSpec
    rw [h12 o]
    congr 1
    exact Finset.sum_congr rfl fun k _ => by rw [h4, h9]
  have hhm : (∑ k : Fin 512, x5 (ix2 p k) * x10 (ix2 k q)) = hmSpec H Wmap (row b hb p) q := by
    unfold hmSpec
    exact Finset.sum_congr rfl fun k _ => by rw [h5, h10]
  rw [hgi, hgh, hhm, h4, h13]

end Cert.KernelIdeal.Payload

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.HostLayouts.lean ====
/-
  Eight arrays the program prepares from its arguments by pure rearrangement, each read entry by entry.

  Before its grid of row blocks runs, the program lays several arguments out afresh:
    * the two time vectors (10000 long) are stood up as columns [10000, 1];
    * the two gate biases (768 long) and the projection's bias (256 long) are laid down as rows [1, 768] and [1, 256];
    * the hidden weights [768, 256] and the projection's weights [256, 512] are transposed;
    * the first 256 columns of the input weights [768, 356] are cut out and transposed.
  None of these changes a value: entry (p, 0) of a column is entry p of its vector, entry (0, o) of a row is entry o
  of its vector, entry (k, o) of a transpose is entry (o, k) of the matrix, and entry (k, o) of the transposed cut is
  entry (o, k) of the input weights, column k being one of the first 256 of the 356.

  Each array is first written as the rearrangement applied to its argument (the `term_` lemmas), and that is then read
  at an index given by its coordinates (the `win_` theorems), on the extended reals.
-/
import proofs.«122590_g31224412242761_cont_9to1_2055_5_alg».proof.Proof.Gen.KernelIdeal.Frame
import proofs.«122590_g31224412242761_cont_9to1_2055_5_alg».proof.Proof.GruSpec
import proofs.«122590_g31224412242761_cont_9to1_2055_5_alg».proof.Proof.LibLayout
import Idealize.ShloMosaic.Lib.ValueLayout
import Idealize.ShloMosaic.Lib.Pipeline.Value

noncomputable section

namespace Cert.KernelIdeal.HostLayouts

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (c : Dev nD)

/-! ## Vectors stood up as columns -/

/-- The column of event times is the vector of event times with a unit axis behind it. -/
theorem term_v21 : (V m c main_call0_v21 : S10000x1.Idx → EReal)
    = shapeCast S10000x1 (m ((c : Thread nD τ).loc main_arg2) : S10000.Idx → EReal) shapeCasts_S10000_S10000x1 := by
  dsimp only [Gen.V, Gen.hostOps0]
  after_results
  rfl

/-- Entry (p, 0) of the column of event times is the event time of row p. -/
theorem win_ts (p : Fin 10000) (u : Fin 1) :
    (V m c main_call0_v21 : S10000x1.Idx → EReal) (ix2 p u)
      = (m ((c : Thread nD τ).loc main_arg2) : S10000.Idx → EReal) (ix1 p) := by
  rw [term_v21]
  exact Cert.LibLayout.shapeCast_a_a1_apply _ _ p u

/-- The column of memory times is the vector of memory times with a unit axis behind it. -/
theorem term_v22 : (V m c main_call0_v22 : S10000x1.Idx → EReal)
    = shapeCast S10000x1 (m ((c : Thread nD τ).loc main_arg3) : S10000.Idx → EReal) shapeCasts_S10000_S10000x1 := by
  dsimp only [Gen.V, Gen.hostOps0]
  after_results
  rfl

/-- Entry (p, 0) of the column of memory times is the memory time of row p. -/
theorem win_mts (p : Fin 10000) (u : Fin 1) :
    (V m c main_call0_v22 : S10000x1.Idx → EReal) (ix2 p u)
      = (m ((c : Thread nD τ).loc main_arg3) : S10000.Idx → EReal) (ix1 p) := by
  rw [term_v22]
  exact Cert.LibLayout.shapeCast_a_a1_apply _ _ p u

/-! ## Bias vectors laid down as rows -/

/-- The row of input-gate biases is the bias vector with a unit axis in front of it. -/
theorem term_v23 : (V m c main_call0_v23 : S1x768.Idx → EReal)
    = shapeCast S1x768 (m ((c : Thread nD τ).loc main_arg9) : S768.Idx → EReal) shapeCasts_S768_S1x768 := by
  dsimp only [Gen.V, Gen.hostOps0]
  after_results
  rfl

/-- Entry (0, o) of the row of input-gate biases is the bias of gate column o. -/
theorem win_bih (u : Fin 1) (o : Fin 768) :
    (V m c main_call0_v23 : S1x768.Idx → EReal) (ix2 u o)
      = (m ((c : Thread nD τ).loc main_arg9) : S768.Idx → EReal) (ix1 o) := by
  rw [term_v23]
  exact shapeCast_a_1a_apply _ _ u o

/-- The row of hidden-gate biases is the bias vector with a unit axis in front of it. -/
theorem term_v24 : (V m c main_call0_v24 : S1x768.Idx → EReal)
    = shapeCast S1x768 (m ((c : Thread nD τ).loc main_arg10) : S768.Idx → EReal) shapeCasts_S768_S1x768 := by
  dsimp only [Gen.V, Gen.hostOps0]
  after_results
  rfl

/-- Entry (0, o) of the row of hidden-gate biases is the bias of gate column o. -/
theorem win_bhh (u : Fin 1) (o : Fin 768) :
    (V m c main_call0_v24 : S1x768.Idx → EReal) (ix2 u o)
      = (m ((c : Thread nD τ).loc main_arg10) : S768.Idx → EReal) (ix1 o) := by
  rw [term_v24]
  exact shapeCast_a_1a_apply _ _ u o

/-- The row of projection biases is the bias vector with a unit axis in front of it. -/
theorem term_v25 : (V m c main_call0_v25 : S1x256.Idx → EReal)
    = shapeCast S1x256 (m ((c : Thread nD τ).loc main_arg12) : S256.Idx → EReal) shapeCasts_S256_S1x256 := by
  dsimp only [Gen.V, Gen.hostOps0]
  after_results
  rfl

/-- Entry (0, q) of the row of projection biases is the bias of output column q. -/
theorem win_bmap (u : Fin 1) (q : Fin 256) :
    (V m c main_call0_v25 : S1x256.Idx → EReal) (ix2 u q)
      = (m ((c : Thread nD τ).loc main_arg12) : S256.Idx → EReal) (ix1 q) := by
  rw [term_v25]
  exact shapeCast_a_1a_apply _ _ u q

/-! ## Transposed weight matrices -/

/-- The hidden weights as the cell multiplies by them: the [768, 256] matrix with its two axes exchanged. -/
theorem term_v7 : (V m c main_call0_v7 : S256x768.Idx → EReal)
    = transpose S256x768 [1, 0] (m ((c : Thread nD τ).loc main_arg8) : S768x256.Idx → EReal)
        transposes_S768x256_S256x768_1_0 := by
  dsimp only [Gen.V, Gen.hostOps0]
  after_results
  rfl

/-- Entry (k, o) of the transposed hidden weights is the weight of memory column k in gate column o. -/
theorem win_wh (k : Fin 256) (o : Fin 768) :
    (V m c main_call0_v7 : S256x768.Idx → EReal) (ix2 k o)
      = (m ((c : Thread nD τ).loc main_arg8) : S768x256.Idx → EReal) (ix2 o k) := by
  rw [term_v7]
  exact transpose_ix2_apply _ _ k o

/-- The projection's weights as the node features multiply by them: the [256, 512] matrix with its axes exchanged. -/
theorem term_v8 : (V m c main_call0_v8 : S512x256.Idx → EReal)
    = transpose S512x256 [1, 0] (m ((c : Thread nD τ).loc main_arg11) : S256x512.Idx → EReal)
        transposes_S256x512_S512x256_1_0 := by
  dsimp only [Gen.V, Gen.hostOps0]
  after_results
  rfl

/-- Entry (k, q) of the transposed projection weights is the weight of feature column k in output column q. -/
theorem win_wm (k : Fin 512) (q : Fin 256) :
    (V m c main_call0_v8 : S512x256.Idx → EReal) (ix2 k q)
      = (m ((c : Thread nD τ).loc main_arg11) : S256x512.Idx → EReal) (ix2 q k) := by
  rw [term_v8]
  exact transpose_ix2_apply _ _ k q

/-! ## The head of the input weights, cut out and transposed -/

/-- The weights the 256 memory-input columns meet: columns 0 to 255 of the [768, 356] input weights, transposed. -/
theorem term_v1 : (V m c main_call0_v1 : S256x768.Idx → EReal)
    = transpose S256x768 [1, 0]
        (extractStridedSlice S768x256 ![0, 0] (m ((c : Thread nD τ).loc main_arg7) : S768x356.Idx → EReal)
          slices_S768x356_S768x256_0_0)
        transposes_S768x256_S256x768_1_0 := by
  dsimp only [Gen.V, Gen.hostOps0]
  after_results
  rfl

/-- Entry (k, o) of the transposed head is the input weight of gate column o at column k of the joined 356-wide
    input, k being one of its first 256 columns. -/
theorem win_w1 (k : Fin 256) (o : Fin 768) :
    (V m c main_call0_v1 : S256x768.Idx → EReal) (ix2 k o)
      = (m ((c : Thread nD τ).loc main_arg7) : S768x356.Idx → EReal) (ix2 o (Cert.GruSpec.hd k)) := by
  rw [term_v1]
  refine (transpose_ix2_apply _ _ k o).trans ?_
  exact slice2_axis1_apply 0 _ _ o k (Cert.GruSpec.hd k) (by show k.val = 0 + k.val; omega)

end Cert.KernelIdeal.HostLayouts

end
-- ==== Proof.LibScatterRead.lean ====
/-
  Reading a scatter that writes its updates (body: return the update) at one position.

  Such a scatter is the left fold, over the updates in row-major order, of point writes: update `j` overwrites the operand
  at its result position when that lies inside the operand and is dropped otherwise. Read at a position where exactly one
  update lands, the result is that update's value, whatever the operand held and whatever the other updates do. The
  fold lemmas are stated for any list of point writes; the scatter lemma for any operand, index and update shapes.
-/
import Idealize.ShloMosaic.Lib.ValueIdx

noncomputable section

namespace Cert.Lib.ScatterRead

open Idealize.ShloMosaic

/-- A left fold of point writes read at a position no step writes: if every step of the fold either
    leaves the array alone (g n = none) or overwrites it at one position g n = some i, and no step
    of the list writes at i0, the fold's result at i0 is the start array's value there. -/
theorem foldl_write_miss {ι κ α : Type} (g : κ → Option ι) (v : κ → α) [DecidableEq ι]
    (step : (ι → α) → κ → ι → α)
    (hs : ∀ r n i, g n = some i → step r n = fun i' => if i' = i then v n else r i')
    (hn : ∀ r n, g n = none → step r n = r) (i0 : ι) :
    ∀ (l : List κ), (∀ n ∈ l, g n ≠ some i0) → ∀ r, l.foldl step r i0 = r i0 := by
  intro l
  induction l with
  | nil => intro _ r; rfl
  | cons a l ih =>
    intro hl r
    rw [List.foldl_cons, ih (fun n hn' => hl n (List.mem_cons_of_mem a hn'))]
    cases hga : g a with
    | none => rw [hn r a hga]
    | some i =>
      rw [hs r a i hga]
      have hne : i0 ≠ i := fun h => hl a List.mem_cons_self (by rw [hga, h])
      exact if_neg hne

/-- A left fold of point writes read at a position exactly one step writes: if the steps are as
    above, the list has no repetition, step n0 of the list writes at i0 and no other step of the
    list does, the fold's result at i0 is the value step n0 writes. -/
theorem foldl_write_hit {ι κ α : Type} (g : κ → Option ι) (v : κ → α) [DecidableEq ι]
    (step : (ι → α) → κ → ι → α)
    (hs : ∀ r n i, g n = some i → step r n = fun i' => if i' = i then v n else r i')
    (hn : ∀ r n, g n = none → step r n = r) (n0 : κ) (i0 : ι) (h0 : g n0 = some i0) :
    ∀ (l : List κ), l.Nodup → n0 ∈ l → (∀ n ∈ l, g n = some i0 → n = n0) →
      ∀ r, l.foldl step r i0 = v n0 := by
  intro l
  induction l with
  | nil => intro _ hm; exact absurd hm List.not_mem_nil
  | cons a l ih =>
    intro hnd hm huniq r
    rw [List.foldl_cons]
    have hnd' := List.nodup_cons.1 hnd
    by_cases han : n0 = a
    · subst han
      rw [foldl_write_miss g v step hs hn i0 l
        (fun n hnl hgn => hnd'.1 (huniq n (List.mem_cons_of_mem _ hnl) hgn ▸ hnl)),
        hs r n0 i0 h0]
      exact if_pos rfl
    · have hml : n0 ∈ l := by
        rcases List.mem_cons.1 hm with h | h
        · exact absurd h han
        · exact h
      exact ih hnd'.2 hml (fun n hnl => huniq n (List.mem_cons_of_mem _ hnl)) _

/-- A scatter whose body returns the update, read at an operand position that exactly one update
    lands at: the result there is that update's value, whatever the operand held. (The scatter is the
    left fold, over the updates in row-major order, of the point writes at their result positions;
    an update whose result position falls outside the operand is dropped.) -/
theorem scatter_set_read {α : Type} {s si u : Shape} {w : Nat} (d : ScatterDims s si u)
    (x : s.Idx → α) (idx : IVec si w) (upd : u.Idx → α) (j0 : u.Idx) (i0 : s.Idx)
    (h0 : d.resultIdx? j0 idx = some i0) (huniq : ∀ j, d.resultIdx? j idx = some i0 → j = j0) :
    Host.scatter d (fun _ b => b) x idx upd i0 = upd j0 := by
  unfold Host.scatter
  refine Eq.trans (foldl_write_hit
    (g := fun n : Fin u.numel => d.resultIdx? (u.rowMajor.symm n) idx)
    (v := fun n : Fin u.numel => upd (u.rowMajor.symm n)) _ ?_ ?_ (u.rowMajor j0) i0 ?_
    (List.finRange u.numel) (List.nodup_finRange _) (List.mem_finRange _) ?_ x) ?_
  · intro r n i h
    simp only [h]
  · intro r n h
    simp only [h]
  · simp only [Equiv.symm_apply_apply]; exact h0
  · intro n _ hn
    rw [← huniq _ hn, Equiv.apply_symm_apply]
  · simp only [Equiv.symm_apply_apply]

end Cert.Lib.ScatterRead

end
-- ==== Proof.LibScatterBlock.lean ====
/-
  A scatter that sets one rectangular window of a matrix, read at any position.

  Writing an [R, C] update as ONE window into an [A, B] matrix at the start (r0, c0) — the dimension numbers of
  `x.at[r0:r0+R, c0:c0+C].set(u)`: both update axes are window axes, no inserted axis, a single index vector (r0, c0) —
  sends update entry (p, q) to position (r0 + p, c0 + q). Read back, the result holds u(o − r0, c − c0) at every position
  (o, c) inside the window and the operand's own entry everywhere else.
-/
import proofs.«122590_g31224412242761_cont_9to1_2055_5_alg».proof.Proof.LibScatterRead
import Idealize.ShloMosaic.Lib.ValueIdx

noncomputable section

namespace Cert.Lib.ScatterBlock

open Idealize.ShloMosaic Idealize.ShloMosaic.ValueIdx Cert.Lib.ScatterRead

/-- A scatter whose body returns the update, read at a position no update lands at, is the operand there. -/
theorem scatter_set_miss {α : Type} {s si u : Shape} {w : Nat} (d : ScatterDims s si u)
    (x : s.Idx → α) (idx : IVec si w) (upd : u.Idx → α) (i0 : s.Idx)
    (hmiss : ∀ j, d.resultIdx? j idx ≠ some i0) :
    Host.scatter d (fun _ b => b) x idx upd i0 = x i0 := by
  unfold Host.scatter
  refine foldl_write_miss
    (g := fun n : Fin u.numel => d.resultIdx? (u.rowMajor.symm n) idx)
    (v := fun n : Fin u.numel => upd (u.rowMajor.symm n)) _ ?_ ?_ i0
    (List.finRange u.numel) (fun n _ => hmiss _) x
  · intro r n i h
    simp only [h]
  · intro r n h
    simp only [h]

variable {A B R C : ℕ} {w : Nat}

/-- The dimension numbers of setting one window: both update axes are window axes, one index vector. -/
abbrev dims (wf : ScatterDims.WF (⟨2, ![A, B]⟩ : Shape) ⟨1, ![2]⟩ ⟨2, ![R, C]⟩ [0, 1] [] [0, 1] 0) :
    ScatterDims (⟨2, ![A, B]⟩ : Shape) ⟨1, ![2]⟩ ⟨2, ![R, C]⟩ :=
  { updateWindowDims := [0, 1], insertedWindowDims := [], scatterDimsToOperandDims := [0, 1], indexVectorDim := 0, wf := wf }

variable (wf : ScatterDims.WF (⟨2, ![A, B]⟩ : Shape) ⟨1, ![2]⟩ ⟨2, ![R, C]⟩ [0, 1] [] [0, 1] 0)

theorem start0 (j : (⟨2, ![R, C]⟩ : Shape).Idx) (idx : IVec (⟨1, ![2]⟩ : Shape) w) :
    (dims wf).start j idx 0 = (idx (ix1 0)).toInt := by
  unfold ScatterDims.start
  rw [dif_pos (by show (0 : Fin 2) ∈ ([0, 1] : List (Fin 2)); decide)]
  refine congrArg (fun k => (idx k).toInt) (funext fun b => ?_)
  match b with
  | ⟨0, _⟩ => rfl

theorem start1 (j : (⟨2, ![R, C]⟩ : Shape).Idx) (idx : IVec (⟨1, ![2]⟩ : Shape) w) :
    (dims wf).start j idx 1 = (idx (ix1 1)).toInt := by
  unfold ScatterDims.start
  rw [dif_pos (by show (1 : Fin 2) ∈ ([0, 1] : List (Fin 2)); decide)]
  refine congrArg (fun k => (idx k).toInt) (funext fun b => ?_)
  match b with
  | ⟨0, _⟩ => rfl

theorem window0 (j : (⟨2, ![R, C]⟩ : Shape).Idx) : (dims wf).window j 0 = (j 0).val := by
  unfold ScatterDims.window
  rw [dif_pos (by show (0 : Fin 2) ∈ (List.finRange 2).filter (· ∉ ([] : List (Fin 2))); decide)]
  rfl

theorem window1 (j : (⟨2, ![R, C]⟩ : Shape).Idx) : (dims wf).window j 1 = (j 1).val := by
  unfold ScatterDims.window
  rw [dif_pos (by show (1 : Fin 2) ∈ (List.finRange 2).filter (· ∉ ([] : List (Fin 2))); decide)]
  rfl

/-- Update entry j lands at (r0 + j₀, c0 + j₁) when the index vector holds (r0, c0) and that position is inside. -/
theorem resultIdx_eq (j : (⟨2, ![R, C]⟩ : Shape).Idx) (idx : IVec (⟨1, ![2]⟩ : Shape) w) (r0 c0 : ℕ)
    (h0 : (idx (ix1 0)).toInt = (r0 : Int)) (h1 : (idx (ix1 1)).toInt = (c0 : Int))
    (hr : r0 + (j 0).val < A) (hc : c0 + (j 1).val < B) :
    (dims wf).resultIdx? j idx = some (ix2 ⟨r0 + (j 0).val, hr⟩ ⟨c0 + (j 1).val, hc⟩) := by
  have s0 : (dims wf).start j idx 0 + ((dims wf).window j 0 : Int) = ((r0 + (j 0).val : ℕ) : Int) := by
    rw [start0, window0, h0]; push_cast; rfl
  have s1 : (dims wf).start j idx 1 + ((dims wf).window j 1 : Int) = ((c0 + (j 1).val : ℕ) : Int) := by
    rw [start1, window1, h1]; push_cast; rfl
  unfold ScatterDims.resultIdx?
  rw [dif_pos (fun a => by
    match a with
    | ⟨0, _⟩ =>
      show 0 ≤ (dims wf).start j idx 0 + ((dims wf).window j 0 : Int) ∧ (dims wf).start j idx 0 + ((dims wf).window j 0 : Int) < ((A : ℕ) : Int)
      rw [s0]; omega
    | ⟨1, _⟩ =>
      show 0 ≤ (dims wf).start j idx 1 + ((dims wf).window j 1 : Int) ∧ (dims wf).start j idx 1 + ((dims wf).window j 1 : Int) < ((B : ℕ) : Int)
      rw [s1]; omega)]
  refine congrArg some (funext fun a => Fin.ext ?_)
  match a with
  | ⟨0, _⟩ =>
    show ((dims wf).start j idx 0 + ((dims wf).window j 0 : Int)).toNat = r0 + (j 0).val
    rw [s0]; exact Int.toNat_natCast _
  | ⟨1, _⟩ =>
    show ((dims wf).start j idx 1 + ((dims wf).window j 1 : Int)).toNat = c0 + (j 1).val
    rw [s1]; exact Int.toNat_natCast _

variable {α : Type}

/-- Inside the window the result holds the update's entry. -/
theorem read_hit (x : (⟨2, ![A, B]⟩ : Shape).Idx → α) (idx : IVec (⟨1, ![2]⟩ : Shape) w)
    (upd : (⟨2, ![R, C]⟩ : Shape).Idx → α) (r0 c0 : ℕ)
    (h0 : (idx (ix1 0)).toInt = (r0 : Int)) (h1 : (idx (ix1 1)).toInt = (c0 : Int))
    (hR : r0 + R ≤ A) (hC : c0 + C ≤ B) (o : Fin A) (c : Fin B) (p : Fin R) (q : Fin C)
    (ho : o.val = r0 + p.val) (hc : c.val = c0 + q.val) :
    Host.scatter (dims wf) (fun _ b => b) x idx upd (ix2 o c) = upd (ix2 p q) := by
  have hp := p.isLt
  have hq := q.isLt
  have e : (ix2 o c : (⟨2, ![A, B]⟩ : Shape).Idx)
      = ix2 ⟨r0 + ((ix2 p q : (⟨2, ![R, C]⟩ : Shape).Idx) 0).val, by show r0 + p.val < A; omega⟩
          ⟨c0 + ((ix2 p q : (⟨2, ![R, C]⟩ : Shape).Idx) 1).val, by show c0 + q.val < B; omega⟩ := by
    refine funext fun a => Fin.ext ?_
    match a with
    | ⟨0, _⟩ => exact ho
    | ⟨1, _⟩ => exact hc
  refine scatter_set_read (dims wf) x idx upd (ix2 p q) _ (e ▸ resultIdx_eq wf (ix2 p q) idx r0 c0 h0 h1 _ _) ?_
  intro j hj
  have hj0 : (j 0).val < R := (j 0).isLt
  have hj1 : (j 1).val < C := (j 1).isLt
  rw [resultIdx_eq wf j idx r0 c0 h0 h1 (by omega) (by omega)] at hj
  have hi := Option.some.inj hj
  have e0 : r0 + (j 0).val = o.val := congrArg (fun i : (⟨2, ![A, B]⟩ : Shape).Idx => (i 0).val) hi
  have e1 : c0 + (j 1).val = c.val := congrArg (fun i : (⟨2, ![A, B]⟩ : Shape).Idx => (i 1).val) hi
  rw [eq_ix2 j]
  refine funext fun a => Fin.ext ?_
  match a with
  | ⟨0, _⟩ => show (j 0).val = p.val; omega
  | ⟨1, _⟩ => show (j 1).val = q.val; omega

/-- Outside the window the result holds the operand's entry. -/
theorem read_miss (x : (⟨2, ![A, B]⟩ : Shape).Idx → α) (idx : IVec (⟨1, ![2]⟩ : Shape) w)
    (upd : (⟨2, ![R, C]⟩ : Shape).Idx → α) (r0 c0 : ℕ)
    (h0 : (idx (ix1 0)).toInt = (r0 : Int)) (h1 : (idx (ix1 1)).toInt = (c0 : Int))
    (hR : r0 + R ≤ A) (hC : c0 + C ≤ B) (o : Fin A) (c : Fin B)
    (hout : ¬ (r0 ≤ o.val ∧ o.val < r0 + R ∧ c0 ≤ c.val ∧ c.val < c0 + C)) :
    Host.scatter (dims wf) (fun _ b => b) x idx upd (ix2 o c) = x (ix2 o c) := by
  refine scatter_set_miss (dims wf) x idx upd _ fun j hj => hout ?_
  have hj0 : (j 0).val < R := (j 0).isLt
  have hj1 : (j 1).val < C := (j 1).isLt
  rw [resultIdx_eq wf j idx r0 c0 h0 h1 (by omega) (by omega)] at hj
  have hi := Option.some.inj hj
  have e0 : r0 + (j 0).val = o.val := congrArg (fun i : (⟨2, ![A, B]⟩ : Shape).Idx => (i 0).val) hi
  have e1 : c0 + (j 1).val = c.val := congrArg (fun i : (⟨2, ![A, B]⟩ : Shape).Idx => (i 1).val) hi
  omega

end Cert.Lib.ScatterBlock

end
-- ==== Proof.HostPadded.lean ====
/-
  The three zero-padded arrays the kernel's windows stage, entry by entry.

  Before the kernel runs, the 100 time weights, the 100 time biases and the 100 tail columns of the input weights are
  each written into an array of zeros that is 128 long on the time-feature axis: the two vectors become rows
  [1, 128], the tail of the weight matrix — transposed, so that the time feature indexes the rows — becomes a matrix
  [128, 768]. Each array is a scatter that SETS one window of the zero array at the origin, so it is the left fold of
  point writes over the update's entries, and entry k of the update is written at position k (for a row: at (0, k)).
  Hence an entry of the padded array whose time-feature coordinate j is below 100 is written exactly once, by update
  entry j, and holds that entry; an entry with j ≥ 100 is written by no update and keeps the zero it started with.

  For each of the two dimension-number records the landing position of an update entry is computed once (start of the
  window read off the index vector, plus the window coordinate), the read of the scatter follows from the two general
  facts "exactly one update lands here" and "no update lands here", and the three arrays are then read through the
  operations that build their updates: the bias vector itself; the weight vector plus the zero vector, which is the
  weight vector on the extended reals; the slice of columns 256 … 355 of the input weights, transposed.
-/
import proofs.«122590_g31224412242761_cont_9to1_2055_5_alg».proof.Proof.Gen.KernelIdeal.Frame
import proofs.«122590_g31224412242761_cont_9to1_2055_5_alg».proof.Proof.GruSpec
import proofs.«122590_g31224412242761_cont_9to1_2055_5_alg».proof.Proof.LibScatterRead
import proofs.«122590_g31224412242761_cont_9to1_2055_5_alg».proof.Proof.LibScatterBlock
import Idealize.ShloMosaic.Lib.IdealHost
import Idealize.ShloMosaic.Lib.ValueLayout
import Idealize.ShloMosaic.Lib.Pipeline.Value

noncomputable section

namespace Cert.KernelIdeal.HostPadded

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (c : Dev nD)

/-! ## One row of 128 whose first 100 entries are set -/

section Row

/-- The start of the window on the row axis is the index vector's first entry. -/
theorem row_start0 {w : Nat} (j : S100.Idx) (idx : IVec S2 w) :
    scatter_S1x128_S2_S100_0_0_01_0.start j idx 0 = (idx (ix1 0)).toInt := by
  unfold ScatterDims.start
  rw [dif_pos (by show (0 : Fin 2) ∈ ([0, 1] : List (Fin 2)); decide)]
  refine congrArg (fun k => (idx k).toInt) (funext fun b => ?_)
  match b with
  | ⟨0, _⟩ => rfl

/-- The start of the window on the column axis is the index vector's second entry. -/
theorem row_start1 {w : Nat} (j : S100.Idx) (idx : IVec S2 w) :
    scatter_S1x128_S2_S100_0_0_01_0.start j idx 1 = (idx (ix1 1)).toInt := by
  unfold ScatterDims.start
  rw [dif_pos (by show (1 : Fin 2) ∈ ([0, 1] : List (Fin 2)); decide)]
  refine congrArg (fun k => (idx k).toInt) (funext fun b => ?_)
  match b with
  | ⟨0, _⟩ => rfl

/-- The row axis is inserted: the window has no extent along it. -/
theorem row_window0 (j : S100.Idx) : scatter_S1x128_S2_S100_0_0_01_0.window j 0 = 0 := by
  unfold ScatterDims.window
  rw [dif_neg (by show ¬ (0 : Fin 2) ∈ (List.finRange 2).filter (· ∉ ([0] : List (Fin 2))); decide)]

/-- Along the column axis the window coordinate is the update's own coordinate. -/
theorem row_window1 (j : S100.Idx) : scatter_S1x128_S2_S100_0_0_01_0.window j 1 = (j 0).val := by
  unfold ScatterDims.window
  rw [dif_pos (by show (1 : Fin 2) ∈ (List.finRange 2).filter (· ∉ ([0] : List (Fin 2))); decide)]
  rfl

/-- With the index vector (0, 0), update entry k lands at (0, k). -/
theorem row_resultIdx {w : Nat} (j : S100.Idx) (idx : IVec S2 w)
    (h0 : (idx (ix1 0)).toInt = 0) (h1 : (idx (ix1 1)).toInt = 0) :
    scatter_S1x128_S2_S100_0_0_01_0.resultIdx? j idx
      = some (ix2 (0 : Fin 1) (⟨(j 0).val, lt_of_lt_of_le (show (j 0).val < 100 from (j 0).isLt) (by decide)⟩ : Fin 128)) := by
  have hj : (j 0).val < 100 := (j 0).isLt
  have s0 : scatter_S1x128_S2_S100_0_0_01_0.start j idx 0 + (scatter_S1x128_S2_S100_0_0_01_0.window j 0 : Int) = ((0 : ℕ) : Int) := by
    rw [row_start0, row_window0, h0]; rfl
  have s1 : scatter_S1x128_S2_S100_0_0_01_0.start j idx 1 + (scatter_S1x128_S2_S100_0_0_01_0.window j 1 : Int) = (((j 0).val : ℕ) : Int) := by
    rw [row_start1, row_window1, h1]; exact Int.zero_add _
  unfold ScatterDims.resultIdx?
  rw [dif_pos (fun a => by
    match a with
    | ⟨0, _⟩ =>
      show 0 ≤ scatter_S1x128_S2_S100_0_0_01_0.start j idx 0 + (scatter_S1x128_S2_S100_0_0_01_0.window j 0 : Int)
        ∧ scatter_S1x128_S2_S100_0_0_01_0.start j idx 0 + (scatter_S1x128_S2_S100_0_0_01_0.window j 0 : Int) < ((1 : ℕ) : Int)
      rw [s0]; omega
    | ⟨1, _⟩ =>
      show 0 ≤ scatter_S1x128_S2_S100_0_0_01_0.start j idx 1 + (scatter_S1x128_S2_S100_0_0_01_0.window j 1 : Int)
        ∧ scatter_S1x128_S2_S100_0_0_01_0.start j idx 1 + (scatter_S1x128_S2_S100_0_0_01_0.window j 1 : Int) < ((128 : ℕ) : Int)
      rw [s1]; omega)]
  refine congrArg some (funext fun a => Fin.ext ?_)
  match a with
  | ⟨0, _⟩ =>
    show (scatter_S1x128_S2_S100_0_0_01_0.start j idx 0 + (scatter_S1x128_S2_S100_0_0_01_0.window j 0 : Int)).toNat = 0
    rw [s0]; rfl
  | ⟨1, _⟩ =>
    show (scatter_S1x128_S2_S100_0_0_01_0.start j idx 1 + (scatter_S1x128_S2_S100_0_0_01_0.window j 1 : Int)).toNat = (j 0).val
    rw [s1]; exact Int.toNat_natCast _

/-- A row of 128 into which a vector of 100 is set from column 0: the first 100 entries are the vector's, the
    other 28 keep what the row held. -/
theorem row_read {w : Nat} {α : Type} (x : S1x128.Idx → α) (idx : IVec S2 w) (upd : S100.Idx → α)
    (h0 : (idx (ix1 0)).toInt = 0) (h1 : (idx (ix1 1)).toInt = 0) (u : Fin 1) (j : Fin 128) :
    Host.scatter scatter_S1x128_S2_S100_0_0_01_0 (fun _ b => b) x idx upd (ix2 u j)
      = if h : j.val < 100 then upd (ix1 ⟨j.val, h⟩) else x (ix2 u j) := by
  have hu : u = 0 := Fin.ext (by have := u.isLt; omega)
  subst hu
  by_cases h : j.val < 100
  · rw [dif_pos h]
    refine Cert.Lib.ScatterRead.scatter_set_read _ x idx upd (ix1 ⟨j.val, h⟩) _ ?_ ?_
    · rw [row_resultIdx _ idx h0 h1]
    · intro j' hj'
      rw [row_resultIdx j' idx h0 h1] at hj'
      have hi := Option.some.inj hj'
      have e1 : (j' 0).val = j.val := congrArg (fun i : S1x128.Idx => (i 1).val) hi
      rw [eq_ix1 j']
      refine funext fun a => Fin.ext ?_
      match a with
      | ⟨0, _⟩ => exact e1
  · rw [dif_neg h]
    refine Cert.Lib.ScatterBlock.scatter_set_miss _ x idx upd _ fun j' hj' => h ?_
    rw [row_resultIdx j' idx h0 h1] at hj'
    have hi := Option.some.inj hj'
    have e1 : (j' 0).val = j.val := congrArg (fun i : S1x128.Idx => (i 1).val) hi
    have hlt : (j' 0).val < 100 := (j' 0).isLt
    omega

end Row

/-! ## The two padded rows -/

/-- The index vector both row scatters are given: its first entry is the zero word … -/
theorem idx00_0 : ((concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) (ix1 0)).toInt = 0 := by
  rfl

/-- … and so is its second. -/
theorem idx00_1 : ((concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) (ix1 1)).toInt = 0 := by
  decide

/-- The padded time bias as the host operations build it: the bias vector set into a row of zeros at (0, 0). -/
theorem term_v20 : (V m c main_call0_v20 : S1x128.Idx → EReal)
    = Host.scatter scatter_S1x128_S2_S100_0_0_01_0 (fun _ b => b) (broadcastInDim S1x128 ![] bcast_S_S1x128 (constant (F := Ideal) S_ .f32 0x00000000#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32)
        (m ((c : Thread nD τ).loc main_arg6) : S100.Idx → EReal) := by
  dsimp only [Gen.V, Gen.hostOps0]
  after_results
  simp only [StableHlo.TRef.toBuf, StableHlo.TRef.ofBuf, cast_eq]

/-- The padded time weights as the host operations build them: the weight vector, with the zero vector added to it,
    set into a row of zeros at (0, 0). -/
theorem term_v15 : (V m c main_call0_v15 : S1x128.Idx → EReal)
    = Host.scatter scatter_S1x128_S2_S100_0_0_01_0 (fun _ b => b) (broadcastInDim S1x128 ![] bcast_S_S1x128 (constant (F := Ideal) S_ .f32 0x00000000#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32)
        (addf (m ((c : Thread nD τ).loc main_arg5) : FVec Ideal S100 .f32)
          (broadcastInDim S100 ![] bcast_S_S100 (constant (F := Ideal) S_ .f32 0x00000000#32))) := by
  dsimp only [Gen.V, Gen.hostOps0]
  after_results
  simp only [StableHlo.TRef.toBuf, StableHlo.TRef.ofBuf, cast_eq]

/-- An array of zeros reads 0 everywhere. -/
theorem zeros_apply {T : Shape} (h : S_.BroadcastsInDim T ![]) (i : T.Idx) :
    broadcastInDim T ![] h (constant (F := Ideal) S_ .f32 0x00000000#32) i = (0 : EReal) := by
  rw [broadcastInDim_scalar_apply, constant_apply, Ideal.ofBits_zero_f32]

/-- The padded time bias: entry j is the bias of time feature j for j < 100, and 0 for the 28 padding columns. -/
theorem win_tb (u : Fin 1) (j : Fin 128) :
    (V m c main_call0_v20 : S1x128.Idx → EReal) (ix2 u j)
      = (if h : j.val < 100 then (m ((c : Thread nD τ).loc main_arg6) : S100.Idx → EReal) (ix1 ⟨j.val, h⟩) else 0 : EReal) := by
  refine (congrFun (term_v20 m c) (ix2 u j)).trans ?_
  refine (row_read _ _ _ idx00_0 idx00_1 u j).trans ?_
  by_cases h : j.val < 100
  · rw [dif_pos h, dif_pos h]
  · rw [dif_neg h, dif_neg h]
    exact zeros_apply _ _

/-- The padded time weights: entry j is the weight of time feature j for j < 100 (adding the zero vector changes no
    extended real), and 0 for the 28 padding columns. -/
theorem win_tw (u : Fin 1) (j : Fin 128) :
    (V m c main_call0_v15 : S1x128.Idx → EReal) (ix2 u j)
      = (if h : j.val < 100 then (m ((c : Thread nD τ).loc main_arg5) : S100.Idx → EReal) (ix1 ⟨j.val, h⟩) else 0 : EReal) := by
  refine (congrFun (term_v15 m c) (ix2 u j)).trans ?_
  refine (row_read _ _ _ idx00_0 idx00_1 u j).trans ?_
  by_cases h : j.val < 100
  · rw [dif_pos h, dif_pos h, addf_apply, zeros_apply, add_zero]
  · rw [dif_neg h, dif_neg h]
    exact zeros_apply _ _

/-! ## The matrix of 128 rows whose first 100 rows are set -/

section Block

/-- The start of the window on the row axis is the index vector's one entry. -/
theorem blk_start0 {w : Nat} (j : S100x768.Idx) (idx : IVec S1 w) :
    scatter_S128x768_S1_S100x768_01_n_0_0.start j idx 0 = (idx (ix1 0)).toInt := by
  unfold ScatterDims.start
  rw [dif_pos (by show (0 : Fin 2) ∈ ([0] : List (Fin 2)); decide)]
  refine congrArg (fun k => (idx k).toInt) (funext fun b => ?_)
  match b with
  | ⟨0, _⟩ => rfl

/-- No index names the column axis: the window starts at column 0. -/
theorem blk_start1 {w : Nat} (j : S100x768.Idx) (idx : IVec S1 w) :
    scatter_S128x768_S1_S100x768_01_n_0_0.start j idx 1 = 0 := by
  unfold ScatterDims.start
  rw [dif_neg (by show ¬ (1 : Fin 2) ∈ ([0] : List (Fin 2)); decide)]

/-- Both update axes are window axes: the window coordinates are the update's own. -/
theorem blk_window0 (j : S100x768.Idx) : scatter_S128x768_S1_S100x768_01_n_0_0.window j 0 = (j 0).val := by
  unfold ScatterDims.window
  rw [dif_pos (by show (0 : Fin 2) ∈ (List.finRange 2).filter (· ∉ ([] : List (Fin 2))); decide)]
  rfl

theorem blk_window1 (j : S100x768.Idx) : scatter_S128x768_S1_S100x768_01_n_0_0.window j 1 = (j 1).val := by
  unfold ScatterDims.window
  rw [dif_pos (by show (1 : Fin 2) ∈ (List.finRange 2).filter (· ∉ ([] : List (Fin 2))); decide)]
  rfl

/-- With the index vector (0), update entry (p, q) lands at (p, q). -/
theorem blk_resultIdx {w : Nat} (j : S100x768.Idx) (idx : IVec S1 w) (h0 : (idx (ix1 0)).toInt = 0) :
    scatter_S128x768_S1_S100x768_01_n_0_0.resultIdx? j idx
      = some (ix2 (⟨(j 0).val, lt_of_lt_of_le (show (j 0).val < 100 from (j 0).isLt) (by decide)⟩ : Fin 128)
          (⟨(j 1).val, show (j 1).val < 768 from (j 1).isLt⟩ : Fin 768)) := by
  have hj0 : (j 0).val < 100 := (j 0).isLt
  have hj1 : (j 1).val < 768 := (j 1).isLt
  have s0 : scatter_S128x768_S1_S100x768_01_n_0_0.start j idx 0 + (scatter_S128x768_S1_S100x768_01_n_0_0.window j 0 : Int) = (((j 0).val : ℕ) : Int) := by
    rw [blk_start0, blk_window0, h0]; exact Int.zero_add _
  have s1 : scatter_S128x768_S1_S100x768_01_n_0_0.start j idx 1 + (scatter_S128x768_S1_S100x768_01_n_0_0.window j 1 : Int) = (((j 1).val : ℕ) : Int) := by
    rw [blk_start1, blk_window1]; exact Int.zero_add _
  unfold ScatterDims.resultIdx?
  rw [dif_pos (fun a => by
    match a with
    | ⟨0, _⟩ =>
      show 0 ≤ scatter_S128x768_S1_S100x768_01_n_0_0.start j idx 0 + (scatter_S128x768_S1_S100x768_01_n_0_0.window j 0 : Int)
        ∧ scatter_S128x768_S1_S100x768_01_n_0_0.start j idx 0 + (scatter_S128x768_S1_S100x768_01_n_0_0.window j 0 : Int) < ((128 : ℕ) : Int)
      rw [s0]; omega
    | ⟨1, _⟩ =>
      show 0 ≤ scatter_S128x768_S1_S100x768_01_n_0_0.start j idx 1 + (scatter_S128x768_S1_S100x768_01_n_0_0.window j 1 : Int)
        ∧ scatter_S128x768_S1_S100x768_01_n_0_0.start j idx 1 + (scatter_S128x768_S1_S100x768_01_n_0_0.window j 1 : Int) < ((768 : ℕ) : Int)
      rw [s1]; omega)]
  refine congrArg some (funext fun a => Fin.ext ?_)
  match a with
  | ⟨0, _⟩ =>
    show (scatter_S128x768_S1_S100x768_01_n_0_0.start j idx 0 + (scatter_S128x768_S1_S100x768_01_n_0_0.window j 0 : Int)).toNat = (j 0).val
    rw [s0]; exact Int.toNat_natCast _
  | ⟨1, _⟩ =>
    show (scatter_S128x768_S1_S100x768_01_n_0_0.start j idx 1 + (scatter_S128x768_S1_S100x768_01_n_0_0.window j 1 : Int)).toNat = (j 1).val
    rw [s1]; exact Int.toNat_natCast _

/-- A matrix of 128 rows into which a matrix of 100 rows is set from row 0: the first 100 rows are the smaller
    matrix's, the other 28 keep what the operand held. -/
theorem block_read {w : Nat} {α : Type} (x : S128x768.Idx → α) (idx : IVec S1 w) (upd : S100x768.Idx → α)
    (h0 : (idx (ix1 0)).toInt = 0) (j : Fin 128) (o : Fin 768) :
    Host.scatter scatter_S128x768_S1_S100x768_01_n_0_0 (fun _ b => b) x idx upd (ix2 j o)
      = if h : j.val < 100 then upd (ix2 ⟨j.val, h⟩ o) else x (ix2 j o) := by
  by_cases h : j.val < 100
  · rw [dif_pos h]
    refine Cert.Lib.ScatterRead.scatter_set_read _ x idx upd (ix2 ⟨j.val, h⟩ o) _ ?_ ?_
    · rw [blk_resultIdx _ idx h0]
    · intro j' hj'
      rw [blk_resultIdx j' idx h0] at hj'
      have hi := Option.some.inj hj'
      have e0 : (j' 0).val = j.val := congrArg (fun i : S128x768.Idx => (i 0).val) hi
      have e1 : (j' 1).val = o.val := congrArg (fun i : S128x768.Idx => (i 1).val) hi
      rw [eq_ix2 j']
      refine funext fun a => Fin.ext ?_
      match a with
      | ⟨0, _⟩ => exact e0
      | ⟨1, _⟩ => exact e1
  · rw [dif_neg h]
    refine Cert.Lib.ScatterBlock.scatter_set_miss _ x idx upd _ fun j' hj' => h ?_
    rw [blk_resultIdx j' idx h0] at hj'
    have hi := Option.some.inj hj'
    have e0 : (j' 0).val = j.val := congrArg (fun i : S128x768.Idx => (i 0).val) hi
    have hlt : (j' 0).val < 100 := (j' 0).isLt
    omega

end Block

/-! ## The padded tail of the input weights -/

/-- The index vector of the matrix scatter: its one entry is the zero word. -/
theorem idx0_0 : ((broadcastInDim S1 ![] bcast_S_S1 (constantI S_ 32 0#32) : IVec S1 32) (ix1 0)).toInt = 0 := by
  rfl

/-- The padded tail weights as the host operations build them: columns 256 … 355 of the input weights, transposed,
    set into a matrix of zeros from row 0. -/
theorem term_v6 : (V m c main_call0_v6 : S128x768.Idx → EReal)
    = Host.scatter scatter_S128x768_S1_S100x768_01_n_0_0 (fun _ b => b)
        (broadcastInDim S128x768 ![] bcast_S_S128x768 (constant (F := Ideal) S_ .f32 0x00000000#32))
        (broadcastInDim S1 ![] bcast_S_S1 (constantI S_ 32 0#32) : IVec S1 32)
        (transpose S100x768 [1, 0]
          (extractStridedSlice S768x100 ![0, 256] (m ((c : Thread nD τ).loc main_arg7) : S768x356.Idx → EReal)
            slices_S768x356_S768x100_0_256)
          transposes_S768x100_S100x768_1_0) := by
  dsimp only [Gen.V, Gen.hostOps0]
  after_results
  refine Eq.trans (cast_eq _ _) ?_
  refine congr (congr (congrArg (Host.scatter scatter_S128x768_S1_S100x768_01_n_0_0 (fun _ b => b)) ?_) ?_) ?_
  · simp only [StableHlo.TRef.toBuf, StableHlo.TRef.ofBuf, cast_eq]
  · simp only [StableHlo.TRef.toBuf, StableHlo.TRef.ofBuf, cast_eq]
  · simp only [StableHlo.TRef.toBuf, StableHlo.TRef.ofBuf, cast_eq]

/-- The padded tail weights: entry (j, o) is the input weight of gate column o against time feature j — column
    256 + j of the joined input — for j < 100, and 0 in the 28 padding rows. -/
theorem win_w2 (j : Fin 128) (o : Fin 768) :
    (V m c main_call0_v6 : S128x768.Idx → EReal) (ix2 j o)
      = (if h : j.val < 100 then (m ((c : Thread nD τ).loc main_arg7) : S768x356.Idx → EReal) (ix2 o (Cert.GruSpec.tl ⟨j.val, h⟩))
          else 0 : EReal) := by
  refine (congrFun (term_v6 m c) (ix2 j o)).trans ?_
  refine (block_read _ _ _ idx0_0 j o).trans ?_
  by_cases h : j.val < 100
  · rw [dif_pos h, dif_pos h]
    refine (transpose_ix2_apply _ _ _ _).trans ?_
    exact slice2_axis1_apply 256 _ _ o ⟨j.val, h⟩ (Cert.GruSpec.tl ⟨j.val, h⟩) rfl
  · rw [dif_neg h, dif_neg h]
    exact zeros_apply _ _

end Cert.KernelIdeal.HostPadded

end
-- ==== Proof.KernelValue.lean ====
/-
  The kernel's whole result array is G of the argument arrays.

  The launch runs the body at five points; point t stages rows t·2000 … t·2000 + 1999 of the five row-wise operands and
  the whole of the nine others, and writes back rows t·2000 … t·2000 + 1999 of the result. By the block law each written
  block is that block of G, and the five blocks tile the 10000 rows, so the array the run leaves is G.
-/
import proofs.«122590_g31224412242761_cont_9to1_2055_5_alg».proof.Proof.Gen.KernelIdeal.Value
import proofs.«122590_g31224412242761_cont_9to1_2055_5_alg».proof.Proof.BlockLaw
import proofs.«122590_g31224412242761_cont_9to1_2055_5_alg».proof.Proof.HostLayouts
import proofs.«122590_g31224412242761_cont_9to1_2055_5_alg».proof.Proof.HostPadded

noncomputable section

namespace Cert.KernelIdeal.Whole

open Cert.KernelIdeal Cert.KernelIdeal.Gen Idealize.ShloMosaic Idealize.ShloMosaic.TcCoe Idealize.SL.Sem
open Idealize.ShloMosaic.ValueIdx Cert.GruSpec Cert.KernelIdeal.Payload
open Idealize.ShloMosaic.Pipeline (Dat)

variable (m : (ℓ : Loc nD τ sig) → Buf (Elt Ideal) ℓ) (ρ : Dev nD → PrngReg)

/-- G of the argument arrays as launched, on core c. -/
abbrev Gk (c : Dev nD) : S10000x256.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- The printed index maps over the five points: the row-wise windows sit at the output's row block and column block 0,
    the others at block (0, 0); the output's row block is at most 4. -/
theorem idx_facts : ∀ t : Fin cfg0.N,
    win0_14.index t (0 : Fin 2) ≤ 4 ∧ win0_14.index t (1 : Fin 2) = 0
    ∧ win0_0.index t (0 : Fin 2) = win0_14.index t (0 : Fin 2) ∧ win0_0.index t (1 : Fin 2) = 0
    ∧ win0_1.index t (0 : Fin 2) = win0_14.index t (0 : Fin 2) ∧ win0_1.index t (1 : Fin 2) = 0
    ∧ win0_2.index t (0 : Fin 2) = 0 ∧ win0_2.index t (1 : Fin 2) = 0
    ∧ win0_3.index t (0 : Fin 2) = win0_14.index t (0 : Fin 2) ∧ win0_3.index t (1 : Fin 2) = 0
    ∧ win0_4.index t (0 : Fin 2) = win0_14.index t (0 : Fin 2) ∧ win0_4.index t (1 : Fin 2) = 0
    ∧ win0_5.index t (0 : Fin 2) = win0_14.index t (0 : Fin 2) ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0 :=
  (by decide +kernel : ∀ t : Fin grid0.N, _)

/-- An index is in point t's block iff each coordinate is in the block's range. -/
theorem mem_blk (t : Fin cfg0.N) (i : S10000x256.Idx) :
    i ∈ ((cfg0.win 14).blk t).view.set ↔ ∀ a : Fin 2, win0_14.index t a * S2000x256.size a ≤ (i a).val
      ∧ (i a).val < win0_14.index t a * S2000x256.size a + S2000x256.size a := by
  show i ∈ ((View.whole main_v0).slice (win0_14.rect t)).set ↔ _
  rw [View.set_slice_whole, Rect.mem_set_unit]
  exact Iff.rfl

/-- Every one of the five row blocks is some point's. -/
theorem idx_onto : ∀ q0 : Fin 5, ∃ t : Fin cfg0.N, win0_14.index t = ![q0.val, 0] :=
  (by decide +kernel : ∀ q0 : Fin 5, ∃ t : Fin grid0.N, win0_14.index t = ![q0.val, 0])

/-- The five blocks cover the array: row r is in the block of point r / 2000. -/
theorem cover (i : S10000x256.Idx) :
    ∃ t : Fin cfg0.N, (cfg0.win 14).flush t = true ∧ i ∈ ((cfg0.win 14).blk t).view.set := by
  have hi0 : (i 0).val < 10000 := (i 0).isLt
  have hi1 : (i 1).val < 256 := (i 1).isLt
  obtain ⟨t, ht⟩ := idx_onto ⟨(i 0).val / 2000, by omega⟩
  have q0 : win0_14.index t (0 : Fin 2) = (i 0).val / 2000 := congrFun ht 0
  have q1 : win0_14.index t (1 : Fin 2) = 0 := congrFun ht 1
  refine ⟨t, flush0_14 t, ?_⟩
  rw [mem_blk]
  intro a
  match a with
  | ⟨0, _⟩ => show win0_14.index t (0 : Fin 2) * 2000 ≤ (i 0).val ∧ (i 0).val < win0_14.index t (0 : Fin 2) * 2000 + 2000; omega
  | ⟨1, _⟩ => show win0_14.index t (1 : Fin 2) * 256 ≤ (i 1).val ∧ (i 1).val < win0_14.index t (1 : Fin 2) * 256 + 256; omega

/-- Window 0's block at point t: rows of ts. -/
theorem blk0 (c : Dev nD) (t : Fin cfg0.N) (p : Fin 2000) :
    iblk m c 0 t (ix2 p 0) = (m ((c : Thread nD τ).loc main_arg2) : S10000.Idx → EReal) (ix1 (row _ (idx_facts t).1 p)) := by
  obtain ⟨hb, e14, e0a, e0b, e1a, e1b, e2a, e2b, e3a, e3b, e4a, e4b, e5a, e5b, e6a, e6b, e7a, e7b, e8a, e8b, e9a, e9b, e10a, e10b, e11a, e11b, e12a, e12b, e13a, e13b⟩ := idx_facts t
  have e : ((cfg0.win 0).blk t).view.emb (ix2 p 0) = (ix2 (row _ (idx_facts t).1 p) 0) := by
    funext a; apply Fin.ext
    match a with
    | ⟨0, _⟩ => show win0_0.index t (0 : Fin 2) * 2000 + 1 * p.val = win0_14.index t (0 : Fin 2) * 2000 + p.val; omega
    | ⟨1, _⟩ => show win0_0.index t (1 : Fin 2) * 1 + 1 * (0 : Fin 1).val = (0 : Fin 1).val; omega
  show V m c main_call0_v21 (((cfg0.win 0).blk t).view.emb (ix2 p 0)) = _
  rw [e]
  exact HostLayouts.win_ts m c _ _

/-- Window 1's block at point t: rows of mem_ts. -/
theorem blk1 (c : Dev nD) (t : Fin cfg0.N) (p : Fin 2000) :
    iblk m c 1 t (ix2 p 0) = (m ((c : Thread nD τ).loc main_arg3) : S10000.Idx → EReal) (ix1 (row _ (idx_facts t).1 p)) := by
  obtain ⟨hb, e14, e0a, e0b, e1a, e1b, e2a, e2b, e3a, e3b, e4a, e4b, e5a, e5b, e6a, e6b, e7a, e7b, e8a, e8b, e9a, e9b, e10a, e10b, e11a, e11b, e12a, e12b, e13a, e13b⟩ := idx_facts t
  have e : ((cfg0.win 1).blk t).view.emb (ix2 p 0) = (ix2 (row _ (idx_facts t).1 p) 0) := by
    funext a; apply Fin.ext
    match a with
    | ⟨0, _⟩ => show win0_1.index t (0 : Fin 2) * 2000 + 1 * p.val = win0_14.index t (0 : Fin 2) * 2000 + p.val; omega
    | ⟨1, _⟩ => show win0_1.index t (1 : Fin 2) * 1 + 1 * (0 : Fin 1).val = (0 : Fin 1).val; omega
  show V m c main_call0_v22 (((cfg0.win 1).blk t).view.emb (ix2 p 0)) = _
  rw [e]
  exact HostLayouts.win_mts m c _ _

/-- Window 2's block at point t: the padded time biases. -/
theorem blk2 (c : Dev nD) (t : Fin cfg0.N) (j : Fin 128) :
    iblk m c 2 t (ix2 0 j) = if h : j.val < 100 then (m ((c : Thread nD τ).loc main_arg6) : S100.Idx → EReal) (ix1 ⟨j.val, h⟩) else (0 : EReal) := by
  obtain ⟨hb, e14, e0a, e0b, e1a, e1b, e2a, e2b, e3a, e3b, e4a, e4b, e5a, e5b, e6a, e6b, e7a, e7b, e8a, e8b, e9a, e9b, e10a, e10b, e11a, e11b, e12a, e12b, e13a, e13b⟩ := idx_facts t
  have e : ((cfg0.win 2).blk t).view.emb (ix2 0 j) = (ix2 0 j) := by
    funext a; apply Fin.ext
    match a with
    | ⟨0, _⟩ => show win0_2.index t (0 : Fin 2) * 1 + 1 * (0 : Fin 1).val = (0 : Fin 1).val; omega
    | ⟨1, _⟩ => show win0_2.index t (1 : Fin 2) * 128 + 1 * j.val = j.val; omega
  show V m c main_call0_v20 (((cfg0.win 2).blk t).view.emb (ix2 0 j)) = _
  rw [e]
  exact HostPadded.win_tb m c _ _

/-- Window 3's block at point t: rows of mem_input. -/
theorem blk3 (c : Dev nD) (t : Fin cfg0.N) (p : Fin 2000) (k : Fin 256) :
    iblk m c 3 t (ix2 p k) = (m ((c : Thread nD τ).loc main_arg0) : S10000x256.Idx → EReal) (ix2 (row _ (idx_facts t).1 p) k) := by
  obtain ⟨hb, e14, e0a, e0b, e1a, e1b, e2a, e2b, e3a, e3b, e4a, e4b, e5a, e5b, e6a, e6b, e7a, e7b, e8a, e8b, e9a, e9b, e10a, e10b, e11a, e11b, e12a, e12b, e13a, e13b⟩ := idx_facts t
  have e : ((cfg0.win 3).blk t).view.emb (ix2 p k) = (ix2 (row _ (idx_facts t).1 p) k) := by
    funext a; apply Fin.ext
    match a with
    | ⟨0, _⟩ => show win0_3.index t (0 : Fin 2) * 2000 + 1 * p.val = win0_14.index t (0 : Fin 2) * 2000 + p.val; omega
    | ⟨1, _⟩ => show win0_3.index t (1 : Fin 2) * 256 + 1 * k.val = k.val; omega
  show V m c main_arg0 (((cfg0.win 3).blk t).view.emb (ix2 p k)) = _
  rw [e]
  exact congrFun (V_main_arg0 m c) _

/-- Window 4's block at point t: rows of mem. -/
theorem blk4 (c : Dev nD) (t : Fin cfg0.N) (p : Fin 2000) (k : Fin 256) :
    iblk m c 4 t (ix2 p k) = (m ((c : Thread nD τ).loc main_arg1) : S10000x256.Idx → EReal) (ix2 (row _ (idx_facts t).1 p) k) := by
  obtain ⟨hb, e14, e0a, e0b, e1a, e1b, e2a, e2b, e3a, e3b, e4a, e4b, e5a, e5b, e6a, e6b, e7a, e7b, e8a, e8b, e9a, e9b, e10a, e10b, e11a, e11b, e12a, e12b, e13a, e13b⟩ := idx_facts t
  have e : ((cfg0.win 4).blk t).view.emb (ix2 p k) = (ix2 (row _ (idx_facts t).1 p) k) := by
    funext a; apply Fin.ext
    match a with
    | ⟨0, _⟩ => show win0_4.index t (0 : Fin 2) * 2000 + 1 * p.val = win0_14.index t (0 : Fin 2) * 2000 + p.val; omega
    | ⟨1, _⟩ => show win0_4.index t (1 : Fin 2) * 256 + 1 * k.val = k.val; omega
  show V m c main_arg1 (((cfg0.win 4).blk t).view.emb (ix2 p k)) = _
  rw [e]
  exact congrFun (V_main_arg1 m c) _

/-- Window 5's block at point t: rows of h. -/
theorem blk5 (c : Dev nD) (t : Fin cfg0.N) (p : Fin 2000) (k : Fin 512) :
    iblk m c 5 t (ix2 p k) = (m ((c : Thread nD τ).loc main_arg4) : S10000x512.Idx → EReal) (ix2 (row _ (idx_facts t).1 p) k) := by
  obtain ⟨hb, e14, e0a, e0b, e1a, e1b, e2a, e2b, e3a, e3b, e4a, e4b, e5a, e5b, e6a, e6b, e7a, e7b, e8a, e8b, e9a, e9b, e10a, e10b, e11a, e11b, e12a, e12b, e13a, e13b⟩ := idx_facts t
  have e : ((cfg0.win 5).blk t).view.emb (ix2 p k) = (ix2 (row _ (idx_facts t).1 p) k) := by
    funext a; apply Fin.ext
    match a with
    | ⟨0, _⟩ => show win0_5.index t (0 : Fin 2) * 2000 + 1 * p.val = win0_14.index t (0 : Fin 2) * 2000 + p.val; omega
    | ⟨1, _⟩ => show win0_5.index t (1 : Fin 2) * 512 + 1 * k.val = k.val; omega
  show V m c main_arg4 (((cfg0.win 5).blk t).view.emb (ix2 p k)) = _
  rw [e]
  exact congrFun (V_main_arg4 m c) _

/-- Window 6's block at point t: the padded time weights. -/
theorem blk6 (c : Dev nD) (t : Fin cfg0.N) (j : Fin 128) :
    iblk m c 6 t (ix2 0 j) = if h : j.val < 100 then (m ((c : Thread nD τ).loc main_arg5) : S100.Idx → EReal) (ix1 ⟨j.val, h⟩) else (0 : EReal) := by
  obtain ⟨hb, e14, e0a, e0b, e1a, e1b, e2a, e2b, e3a, e3b, e4a, e4b, e5a, e5b, e6a, e6b, e7a, e7b, e8a, e8b, e9a, e9b, e10a, e10b, e11a, e11b, e12a, e12b, e13a, e13b⟩ := idx_facts t
  have e : ((cfg0.win 6).blk t).view.emb (ix2 0 j) = (ix2 0 j) := by
    funext a; apply Fin.ext
    match a with
    | ⟨0, _⟩ => show win0_6.index t (0 : Fin 2) * 1 + 1 * (0 : Fin 1).val = (0 : Fin 1).val; omega
    | ⟨1, _⟩ => show win0_6.index t (1 : Fin 2) * 128 + 1 * j.val = j.val; omega
  show V m c main_call0_v15 (((cfg0.win 6).blk t).view.emb (ix2 0 j)) = _
  rw [e]
  exact HostPadded.win_tw m c _ _

/-- Window 7's block at point t: the transposed head of W_ih. -/
theorem blk7 (c : Dev nD) (t : Fin cfg0.N) (k : Fin 256) (o : Fin 768) :
    iblk m c 7 t (ix2 k o) = (m ((c : Thread nD τ).loc main_arg7) : S768x356.Idx → EReal) (ix2 o (hd k)) := by
  obtain ⟨hb, e14, e0a, e0b, e1a, e1b, e2a, e2b, e3a, e3b, e4a, e4b, e5a, e5b, e6a, e6b, e7a, e7b, e8a, e8b, e9a, e9b, e10a, e10b, e11a, e11b, e12a, e12b, e13a, e13b⟩ := idx_facts t
  have e : ((cfg0.win 7).blk t).view.emb (ix2 k o) = (ix2 k o) := by
    funext a; apply Fin.ext
    match a with
    | ⟨0, _⟩ => show win0_7.index t (0 : Fin 2) * 256 + 1 * k.val = k.val; omega
    | ⟨1, _⟩ => show win0_7.index t (1 : Fin 2) * 768 + 1 * o.val = o.val; omega
  show V m c main_call0_v1 (((cfg0.win 7).blk t).view.emb (ix2 k o)) = _
  rw [e]
  exact HostLayouts.win_w1 m c _ _

/-- Window 8's block at point t: the transposed, padded tail of W_ih. -/
theorem blk8 (c : Dev nD) (t : Fin cfg0.N) (j : Fin 128) (o : Fin 768) :
    iblk m c 8 t (ix2 j o) = if h : j.val < 100 then (m ((c : Thread nD τ).loc main_arg7) : S768x356.Idx → EReal) (ix2 o (tl ⟨j.val, h⟩)) else (0 : EReal) := by
  obtain ⟨hb, e14, e0a, e0b, e1a, e1b, e2a, e2b, e3a, e3b, e4a, e4b, e5a, e5b, e6a, e6b, e7a, e7b, e8a, e8b, e9a, e9b, e10a, e10b, e11a, e11b, e12a, e12b, e13a, e13b⟩ := idx_facts t
  have e : ((cfg0.win 8).blk t).view.emb (ix2 j o) = (ix2 j o) := by
    funext a; apply Fin.ext
    match a with
    | ⟨0, _⟩ => show win0_8.index t (0 : Fin 2) * 128 + 1 * j.val = j.val; omega
    | ⟨1, _⟩ => show win0_8.index t (1 : Fin 2) * 768 + 1 * o.val = o.val; omega
  show V m c main_call0_v6 (((cfg0.win 8).blk t).view.emb (ix2 j o)) = _
  rw [e]
  exact HostPadded.win_w2 m c _ _

/-- Window 9's block at point t: the transpose of W_hh. -/
theorem blk9 (c : Dev nD) (t : Fin cfg0.N) (k : Fin 256) (o : Fin 768) :
    iblk m c 9 t (ix2 k o) = (m ((c : Thread nD τ).loc main_arg8) : S768x256.Idx → EReal) (ix2 o k) := by
  obtain ⟨hb, e14, e0a, e0b, e1a, e1b, e2a, e2b, e3a, e3b, e4a, e4b, e5a, e5b, e6a, e6b, e7a, e7b, e8a, e8b, e9a, e9b, e10a, e10b, e11a, e11b, e12a, e12b, e13a, e13b⟩ := idx_facts t
  have e : ((cfg0.win 9).blk t).view.emb (ix2 k o) = (ix2 k o) := by
    funext a; apply Fin.ext
    match a with
    | ⟨0, _⟩ => show win0_9.index t (0 : Fin 2) * 256 + 1 * k.val = k.val; omega
    | ⟨1, _⟩ => show win0_9.index t (1 : Fin 2) * 768 + 1 * o.val = o.val; omega
  show V m c main_call0_v7 (((cfg0.win 9).blk t).view.emb (ix2 k o)) = _
  rw [e]
  exact HostLayouts.win_wh m c _ _

/-- Window 10's block at point t: the transpose of W_map. -/
theorem blk10 (c : Dev nD) (t : Fin cfg0.N) (k : Fin 512) (q : Fin 256) :
    iblk m c 10 t (ix2 k q) = (m ((c : Thread nD τ).loc main_arg11) : S256x512.Idx → EReal) (ix2 q k) := by
  obtain ⟨hb, e14, e0a, e0b, e1a, e1b, e2a, e2b, e3a, e3b, e4a, e4b, e5a, e5b, e6a, e6b, e7a, e7b, e8a, e8b, e9a, e9b, e10a, e10b, e11a, e11b, e12a, e12b, e13a, e13b⟩ := idx_facts t
  have e : ((cfg0.win 10).blk t).view.emb (ix2 k q) = (ix2 k q) := by
    funext a; apply Fin.ext
    match a with
    | ⟨0, _⟩ => show win0_10.index t (0 : Fin 2) * 512 + 1 * k.val = k.val; omega
    | ⟨1, _⟩ => show win0_10.index t (1 : Fin 2) * 256 + 1 * q.val = q.val; omega
  show V m c main_call0_v8 (((cfg0.win 10).blk t).view.emb (ix2 k q)) = _
  rw [e]
  exact HostLayouts.win_wm m c _ _

/-- Window 11's block at point t: the bias b_ih as a row. -/
theorem blk11 (c : Dev nD) (t : Fin cfg0.N) (o : Fin 768) :
    iblk m c 11 t (ix2 0 o) = (m ((c : Thread nD τ).loc main_arg9) : S768.Idx → EReal) (ix1 o) := by
  obtain ⟨hb, e14, e0a, e0b, e1a, e1b, e2a, e2b, e3a, e3b, e4a, e4b, e5a, e5b, e6a, e6b, e7a, e7b, e8a, e8b, e9a, e9b, e10a, e10b, e11a, e11b, e12a, e12b, e13a, e13b⟩ := idx_facts t
  have e : ((cfg0.win 11).blk t).view.emb (ix2 0 o) = (ix2 0 o) := by
    funext a; apply Fin.ext
    match a with
    | ⟨0, _⟩ => show win0_11.index t (0 : Fin 2) * 1 + 1 * (0 : Fin 1).val = (0 : Fin 1).val; omega
    | ⟨1, _⟩ => show win0_11.index t (1 : Fin 2) * 768 + 1 * o.val = o.val; omega
  show V m c main_call0_v23 (((cfg0.win 11).blk t).view.emb (ix2 0 o)) = _
  rw [e]
  exact HostLayouts.win_bih m c _ _

/-- Window 12's block at point t: the bias b_hh as a row. -/
theorem blk12 (c : Dev nD) (t : Fin cfg0.N) (o : Fin 768) :
    iblk m c 12 t (ix2 0 o) = (m ((c : Thread nD τ).loc main_arg10) : S768.Idx → EReal) (ix1 o) := by
  obtain ⟨hb, e14, e0a, e0b, e1a, e1b, e2a, e2b, e3a, e3b, e4a, e4b, e5a, e5b, e6a, e6b, e7a, e7b, e8a, e8b, e9a, e9b, e10a, e10b, e11a, e11b, e12a, e12b, e13a, e13b⟩ := idx_facts t
  have e : ((cfg0.win 12).blk t).view.emb (ix2 0 o) = (ix2 0 o) := by
    funext a; apply Fin.ext
    match a with
    | ⟨0, _⟩ => show win0_12.index t (0 : Fin 2) * 1 + 1 * (0 : Fin 1).val = (0 : Fin 1).val; omega
    | ⟨1, _⟩ => show win0_12.index t (1 : Fin 2) * 768 + 1 * o.val = o.val; omega
  show V m c main_call0_v24 (((cfg0.win 12).blk t).view.emb (ix2 0 o)) = _
  rw [e]
  exact HostLayouts.win_bhh m c _ _

/-- Window 13's block at point t: the bias b_map as a row. -/
theorem blk13 (c : Dev nD) (t : Fin cfg0.N) (q : Fin 256) :
    iblk m c 13 t (ix2 0 q) = (m ((c : Thread nD τ).loc main_arg12) : S256.Idx → EReal) (ix1 q) := by
  obtain ⟨hb, e14, e0a, e0b, e1a, e1b, e2a, e2b, e3a, e3b, e4a, e4b, e5a, e5b, e6a, e6b, e7a, e7b, e8a, e8b, e9a, e9b, e10a, e10b, e11a, e11b, e12a, e12b, e13a, e13b⟩ := idx_facts t
  have e : ((cfg0.win 13).blk t).view.emb (ix2 0 q) = (ix2 0 q) := by
    funext a; apply Fin.ext
    match a with
    | ⟨0, _⟩ => show win0_13.index t (0 : Fin 2) * 1 + 1 * (0 : Fin 1).val = (0 : Fin 1).val; omega
    | ⟨1, _⟩ => show win0_13.index t (1 : Fin 2) * 256 + 1 * q.val = q.val; omega
  show V m c main_call0_v25 (((cfg0.win 13).blk t).view.emb (ix2 0 q)) = _
  rw [e]
  exact HostLayouts.win_bmap m c _ _

/-- What point t writes back is block t of G: the block law, with each staged block read off its array. -/
theorem flushed_eq (c : Dev nD) (t : Fin cfg0.N) :
    (dats m 0 c).flushed 14 t = ((cfg0.win 14).blk t).view.read (Elt Ideal) (Gk m c) := by
  rw [Value.flushed14]
  obtain ⟨hb, e14, e0a, e0b, e1a, e1b, e2a, e2b, e3a, e3b, e4a, e4b, e5a, e5b, e6a, e6b, e7a, e7b, e8a, e8b, e9a, e9b, e10a, e10b, e11a, e11b, e12a, e12b, e13a, e13b⟩ := idx_facts t
  funext y
  have hemb : ((cfg0.win 14).blk t).view.emb y = ix2 (row _ (idx_facts t).1 (y 0)) (y 1) := by
    funext a; apply Fin.ext
    match a with
    | ⟨0, _⟩ => show win0_14.index t (0 : Fin 2) * 2000 + 1 * (y 0).val = win0_14.index t (0 : Fin 2) * 2000 + (y 0).val; omega
    | ⟨1, _⟩ => show win0_14.index t (1 : Fin 2) * 256 + 1 * (y 1).val = (y 1).val; omega
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = Gk m c (((cfg0.win 14).blk t).view.emb y)
  rw [hemb]
  refine (congrArg (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (eq_ix2 y)).trans ?_
  exact block_law (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (win0_14.index t (0 : Fin 2)) (idx_facts t).1
    (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (y 0) (y 1)

/-- The array the run leaves is G of the argument arrays. -/
theorem final (c : Dev nD) : (dats m 0 c).arrAt 14 cfg0.N = Gk m c :=
  (dats m 0 c).arrAt_eq_of_cover 14 (Gk m c) (fun t _ => flushed_eq m c t) cover

/-- The kernel's run, with its result array named: G of the arguments, the arguments unchanged. -/
theorem run : θ_run defs (onTc (τ := τ) (main (F := Ideal))) ⟨m, fun _ => 0, ρ⟩ fun r => ∀ c : Dev nD,
      r.2.mem ((c : Thread nD τ).loc main_v0) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Value.run_blocks m ρ)

end Cert.KernelIdeal.Whole

end
-- ==== Proof.RefIsSpec.lean ====
/-
  The reference program computes the gated recurrent update G of the specification, entry by entry.

  The reference is a straight line of array operations. Read at one entry (p, q) of its result, every stage is an
  expression in the entries of the thirteen argument arrays:
  * the time encoding at (p, j) is cos ((ts p - mem_ts p) · time_w j + time_b j);
  * the joined input row has the 256 columns of mem_input followed by the 100 time features, so its product with
    a row of W_ih, a sum over 356 columns, splits into a sum over the first 256 and a sum over the last 100;
  * the two pre-activations add their biases, broadcast along the rows;
  * the three gates are the column ranges [0, 256), [256, 512) and [512, 768) of the pre-activations;
  * the sigmoid is written 1 / (1 + exp (-x)), which is the logistic function by definition;
  * the projection of the node features is a sum over 512 columns, and the last bias is broadcast along the rows.
  Putting the stages together gives the specification's cell at (p, q).
-/
import proofs.«122590_g31224412242761_cont_9to1_2055_5_alg».proof.Proof.Gen.ReferenceIdeal.Read
import proofs.«122590_g31224412242761_cont_9to1_2055_5_alg».proof.Proof.GruSpec

noncomputable section

namespace Cert.ReferenceIdeal.RefValue

open Cert.ReferenceIdeal Cert.ReferenceIdeal.Read Cert.GruSpec Idealize.ShloMosaic Idealize.ShloMosaic.ValueIdx

/-- The time encoding at row p, feature j: the cosine of the time difference of row p scaled by weight j, plus
    bias j. -/
theorem time_feature (x2 x3 : (⟨S10000, .f32⟩ : BufTy).Contents (Elt Ideal))
    (x5 x6 : (⟨S100, .f32⟩ : BufTy).Contents (Elt Ideal)) (p : Fin 10000) (j : Fin 100) :
    val_main_v9 (F := Ideal) x2 x3 x5 x6 (ix2 p j) = tfeat x2 x3 x5 x6 p j := by
  have e1 : idx_main_v1 (idx_main_v3 (ix2 p j)) = ix1 p := funext fun a => match a with | ⟨0, _⟩ => rfl
  have e2 : idx_main_v2 (idx_main_v4 (ix2 p j)) = ix1 j := funext fun a => match a with | ⟨0, _⟩ => rfl
  have e3 : idx_main_v6 (idx_main_v7 (ix2 p j)) = ix1 j := funext fun a => match a with | ⟨0, _⟩ => rfl
  rw [val_main_v9_apply, val_main_v8_apply, val_main_v5_apply, val_main_v3_apply, val_main_v1_apply,
    val_main_v0_apply, val_main_v4_apply, val_main_v2_apply, val_main_v7_apply, val_main_v6_apply, e1, e2, e3]
  rfl

/-- Column c < 256 of the joined input row p is column c of row p of the first piece. -/
theorem joined_head (x0 : (⟨S10000x256, .f32⟩ : BufTy).Contents (Elt Ideal))
    (x2 x3 : (⟨S10000, .f32⟩ : BufTy).Contents (Elt Ideal)) (x5 x6 : (⟨S100, .f32⟩ : BufTy).Contents (Elt Ideal))
    (p : Fin 10000) (c : Fin 256) :
    val_main_v10 (F := Ideal) x0 x2 x3 x5 x6 (ix2 p (hd c)) = x0 (ix2 p c) := by
  unfold val_main_v10
  exact concatenate_pair_apply_left (1 : Fin S10000x356.rank) x0 _ _ (ix2 p (hd c)) rfl (ix2 p c)
    (fun b => match b with | ⟨0, _⟩ => rfl | ⟨1, _⟩ => rfl)

/-- Column 256 + j of the joined input row p is time feature j of row p. -/
theorem joined_tail (x0 : (⟨S10000x256, .f32⟩ : BufTy).Contents (Elt Ideal))
    (x2 x3 : (⟨S10000, .f32⟩ : BufTy).Contents (Elt Ideal)) (x5 x6 : (⟨S100, .f32⟩ : BufTy).Contents (Elt Ideal))
    (p : Fin 10000) (j : Fin 100) :
    val_main_v10 (F := Ideal) x0 x2 x3 x5 x6 (ix2 p (tl j)) = tfeat x2 x3 x5 x6 p j := by
  rw [← time_feature]
  unfold val_main_v10
  exact concatenate_pair_apply_right (s₂ := S10000x100) (1 : Fin S10000x356.rank) x0 _ _ (ix2 p (tl j)) rfl rfl (ix2 p j)
    (fun b => match b with | ⟨0, _⟩ => fun _ => rfl | ⟨1, _⟩ => fun h => absurd rfl h)
    (by show j.val + 256 = 256 + j.val; omega)

/-- The input pre-activation at row p, column o: the 356-term product of the joined input row with row o of W_ih,
    split into its 256 head terms and its 100 time-feature terms, plus bias o. -/
theorem input_preact (x0 : (⟨S10000x256, .f32⟩ : BufTy).Contents (Elt Ideal))
    (x2 x3 : (⟨S10000, .f32⟩ : BufTy).Contents (Elt Ideal)) (x5 x6 : (⟨S100, .f32⟩ : BufTy).Contents (Elt Ideal))
    (x7 : (⟨S768x356, .f32⟩ : BufTy).Contents (Elt Ideal)) (x9 : (⟨S768, .f32⟩ : BufTy).Contents (Elt Ideal))
    (p : Fin 10000) (o : Fin 768) :
    val_main_v15 (F := Ideal) x0 x2 x3 x5 x6 x7 x9 (ix2 p o) = giSpec x0 x2 x3 x5 x6 x7 x9 p o := by
  have el : ∀ k : Fin 356, lidx_main_v12 (ix2 p o) k = ix2 p k :=
    fun k => funext fun a => match a with | ⟨0, _⟩ => rfl | ⟨1, _⟩ => rfl
  have er : ∀ k : Fin 356, idx_main_v11 (ridx_main_v12 (ix2 p o) k) = ix2 o k :=
    fun k => funext fun a => match a with | ⟨0, _⟩ => rfl | ⟨1, _⟩ => rfl
  have eb : idx_main_v13 (idx_main_v14 (ix2 p o)) = ix1 o := funext fun a => match a with | ⟨0, _⟩ => rfl
  rw [val_main_v15_apply, val_main_v12_apply, val_main_v14_apply, val_main_v13_apply, eb]
  simp only [val_main_v11_apply, el, er]
  rw [sum_concat]
  simp only [joined_head, joined_tail]
  rfl

/-- The hidden pre-activation at row p, column o: row p of the memory against row o of W_hh, plus bias o. -/
theorem hidden_preact (x1 : (⟨S10000x256, .f32⟩ : BufTy).Contents (Elt Ideal))
    (x8 : (⟨S768x256, .f32⟩ : BufTy).Contents (Elt Ideal)) (x10 : (⟨S768, .f32⟩ : BufTy).Contents (Elt Ideal))
    (p : Fin 10000) (o : Fin 768) :
    val_main_v20 (F := Ideal) x1 x8 x10 (ix2 p o) = ghSpec x1 x8 x10 p o := by
  have el : ∀ k : Fin 256, lidx_main_v17 (ix2 p o) k = ix2 p k :=
    fun k => funext fun a => match a with | ⟨0, _⟩ => rfl | ⟨1, _⟩ => rfl
  have er : ∀ k : Fin 256, idx_main_v16 (ridx_main_v17 (ix2 p o) k) = ix2 o k :=
    fun k => funext fun a => match a with | ⟨0, _⟩ => rfl | ⟨1, _⟩ => rfl
  have eb : idx_main_v18 (idx_main_v19 (ix2 p o)) = ix1 o := funext fun a => match a with | ⟨0, _⟩ => rfl
  rw [val_main_v20_apply, val_main_v17_apply, val_main_v19_apply, val_main_v18_apply, eb]
  simp only [val_main_v16_apply, el, er]
  rfl

/-- The projected node features at row p, column q: row p of the node features against row q of W_map. -/
theorem projected (x4 : (⟨S10000x512, .f32⟩ : BufTy).Contents (Elt Ideal))
    (x11 : (⟨S256x512, .f32⟩ : BufTy).Contents (Elt Ideal)) (p : Fin 10000) (q : Fin 256) :
    val_main_v50 (F := Ideal) x4 x11 (ix2 p q) = hmSpec x4 x11 p q := by
  have el : ∀ k : Fin 512, lidx_main_v50 (ix2 p q) k = ix2 p k :=
    fun k => funext fun a => match a with | ⟨0, _⟩ => rfl | ⟨1, _⟩ => rfl
  have er : ∀ k : Fin 512, idx_main_v49 (ridx_main_v50 (ix2 p q) k) = ix2 q k :=
    fun k => funext fun a => match a with | ⟨0, _⟩ => rfl | ⟨1, _⟩ => rfl
  rw [val_main_v50_apply]
  simp only [val_main_v49_apply, el, er]
  rfl

/-- The single-precision pattern 0x3F800000 is the number one. -/
theorem one_pattern : Ideal.ofBits .f32 0x3F800000#32 = 1 := by
  simp [Ideal.ofBits, Ideal.ieee, -EReal.coe_mul]; norm_num

/-- One over one plus the exponential of the negated argument, with one spelled by its pattern, is the logistic
    function. -/
theorem sigmoid_eq (x : EReal) :
    Ideal.div (Ideal.ofBits .f32 0x3F800000#32) (Ideal.ofBits .f32 0x3F800000#32 + Ideal.exp (-x))
      = Ideal.logistic x := by
  rw [one_pattern]; rfl

section Gates
variable (x0 x1 : (⟨S10000x256, .f32⟩ : BufTy).Contents (Elt Ideal))
  (x2 x3 : (⟨S10000, .f32⟩ : BufTy).Contents (Elt Ideal)) (x4 : (⟨S10000x512, .f32⟩ : BufTy).Contents (Elt Ideal))
  (x5 x6 : (⟨S100, .f32⟩ : BufTy).Contents (Elt Ideal)) (x7 : (⟨S768x356, .f32⟩ : BufTy).Contents (Elt Ideal))
  (x8 : (⟨S768x256, .f32⟩ : BufTy).Contents (Elt Ideal)) (x9 x10 : (⟨S768, .f32⟩ : BufTy).Contents (Elt Ideal))
  (x11 : (⟨S256x512, .f32⟩ : BufTy).Contents (Elt Ideal)) (x12 : (⟨S256, .f32⟩ : BufTy).Contents (Elt Ideal))
  (p : Fin 10000) (q : Fin 256)

/-- The slice of the input pre-activation at column offset 0 reads column q of the first gate. -/
theorem input_gate0 : val_main_v21 (F := Ideal) x0 x2 x3 x5 x6 x7 x9 (ix2 p q)
    = giSpec x0 x2 x3 x5 x6 x7 x9 p (gate 0 (by omega) q) := by
  have e : idx_main_v21 (ix2 p q) = ix2 p (gate 0 (by omega) q) :=
    funext fun a => match a with | ⟨0, _⟩ => rfl | ⟨1, _⟩ => Fin.ext (Nat.zero_add _).symm
  rw [val_main_v21_apply, e, input_preact]

/-- The slice of the input pre-activation at column offset 256 reads column q of the second gate. -/
theorem input_gate1 : val_main_v22 (F := Ideal) x0 x2 x3 x5 x6 x7 x9 (ix2 p q)
    = giSpec x0 x2 x3 x5 x6 x7 x9 p (gate 256 (by omega) q) := by
  have e : idx_main_v22 (ix2 p q) = ix2 p (gate 256 (by omega) q) :=
    funext fun a => match a with | ⟨0, _⟩ => rfl | ⟨1, _⟩ => rfl
  rw [val_main_v22_apply, e, input_preact]

/-- The slice of the input pre-activation at column offset 512 reads column q of the third gate. -/
theorem input_gate2 : val_main_v23 (F := Ideal) x0 x2 x3 x5 x6 x7 x9 (ix2 p q)
    = giSpec x0 x2 x3 x5 x6 x7 x9 p (gate 512 (by omega) q) := by
  have e : idx_main_v23 (ix2 p q) = ix2 p (gate 512 (by omega) q) :=
    funext fun a => match a with | ⟨0, _⟩ => rfl | ⟨1, _⟩ => rfl
  rw [val_main_v23_apply, e, input_preact]

/-- The slice of the hidden pre-activation at column offset 0 reads column q of the first gate. -/
theorem hidden_gate0 : val_main_v24 (F := Ideal) x1 x8 x10 (ix2 p q) = ghSpec x1 x8 x10 p (gate 0 (by omega) q) := by
  have e : idx_main_v24 (ix2 p q) = ix2 p (gate 0 (by omega) q) :=
    funext fun a => match a with | ⟨0, _⟩ => rfl | ⟨1, _⟩ => Fin.ext (Nat.zero_add _).symm
  rw [val_main_v24_apply, e, hidden_preact]

/-- The slice of the hidden pre-activation at column offset 256 reads column q of the second gate. -/
theorem hidden_gate1 : val_main_v25 (F := Ideal) x1 x8 x10 (ix2 p q) = ghSpec x1 x8 x10 p (gate 256 (by omega) q) := by
  have e : idx_main_v25 (ix2 p q) = ix2 p (gate 256 (by omega) q) :=
    funext fun a => match a with | ⟨0, _⟩ => rfl | ⟨1, _⟩ => rfl
  rw [val_main_v25_apply, e, hidden_preact]

/-- The slice of the hidden pre-activation at column offset 512 reads column q of the third gate. -/
theorem hidden_gate2 : val_main_v26 (F := Ideal) x1 x8 x10 (ix2 p q) = ghSpec x1 x8 x10 p (gate 512 (by omega) q) := by
  have e : idx_main_v26 (ix2 p q) = ix2 p (gate 512 (by omega) q) :=
    funext fun a => match a with | ⟨0, _⟩ => rfl | ⟨1, _⟩ => rfl
  rw [val_main_v26_apply, e, hidden_preact]

/-- The last bias, broadcast along the rows, at (p, q) is its entry q. -/
theorem map_bias : val_main_v53 (F := Ideal) x12 (ix2 p q) = x12 (ix1 q) := by
  have e : idx_main_v52 (idx_main_v53 (ix2 p q)) = ix1 q := funext fun a => match a with | ⟨0, _⟩ => rfl
  rw [val_main_v53_apply, val_main_v52_apply, e]

end Gates

/-- The reference's result at (p, q) is the cell applied to the two pre-activations of row p, the old memory entry,
    the projected node feature and the last bias: every pointwise stage read at (p, q), the six slices as gate
    columns, and each sigmoid recognised as the logistic function. -/
theorem result_at (x0 x1 : (⟨S10000x256, .f32⟩ : BufTy).Contents (Elt Ideal))
    (x2 x3 : (⟨S10000, .f32⟩ : BufTy).Contents (Elt Ideal)) (x4 : (⟨S10000x512, .f32⟩ : BufTy).Contents (Elt Ideal))
    (x5 x6 : (⟨S100, .f32⟩ : BufTy).Contents (Elt Ideal)) (x7 : (⟨S768x356, .f32⟩ : BufTy).Contents (Elt Ideal))
    (x8 : (⟨S768x256, .f32⟩ : BufTy).Contents (Elt Ideal)) (x9 x10 : (⟨S768, .f32⟩ : BufTy).Contents (Elt Ideal))
    (x11 : (⟨S256x512, .f32⟩ : BufTy).Contents (Elt Ideal)) (x12 : (⟨S256, .f32⟩ : BufTy).Contents (Elt Ideal))
    (p : Fin 10000) (q : Fin 256) :
    val_main_v54 (F := Ideal) x0 x1 x2 x3 x4 x5 x6 x7 x8 x9 x10 x11 x12 (ix2 p q)
      = gru (giSpec x0 x2 x3 x5 x6 x7 x9 p) (ghSpec x1 x8 x10 p) (x1 (ix2 p q)) (hmSpec x4 x11 p q) (x12 (ix1 q)) q := by
  simp only [val_main_v54_apply, val_main_v51_apply, val_main_v48_apply, val_main_v46_apply, val_main_v45_apply,
    val_main_v44_apply, val_main_cst_3_apply, val_main_v47_apply, val_main_v40_apply, val_main_v39_apply,
    val_main_cst_2_apply, val_main_v38_apply, val_main_v37_apply, val_main_cst_1_apply, val_main_v36_apply,
    val_main_v35_apply, val_main_v34_apply, val_main_v43_apply, val_main_v42_apply, val_main_v41_apply,
    val_main_v33_apply, val_main_v32_apply, val_main_cst_0_apply, val_main_v31_apply, val_main_v30_apply,
    val_main_cst_apply, val_main_v29_apply, val_main_v28_apply, val_main_v27_apply,
    input_gate0, input_gate1, input_gate2, hidden_gate0, hidden_gate1, hidden_gate2, map_bias, projected,
    Ideal.ofBits_def, Ideal.addf_def, Ideal.subf_def, Ideal.mulf_def, Ideal.hostDivf_def, Ideal.hostNegf_def,
    Ideal.negf_def, Ideal.hostUnary_exp_def, Ideal.hostUnary_tanh_def, sigmoid_eq]
  rfl

/-- The reference's result array is the specification's G of the thirteen argument arrays. -/
theorem ref_eq_G (x0 x1 : (⟨S10000x256, .f32⟩ : BufTy).Contents (Elt Ideal)) (x2 x3 : (⟨S10000, .f32⟩ : BufTy).Contents (Elt Ideal)) (x4 : (⟨S10000x512, .f32⟩ : BufTy).Contents (Elt Ideal)) (x5 x6 : (⟨S100, .f32⟩ : BufTy).Contents (Elt Ideal)) (x7 : (⟨S768x356, .f32⟩ : BufTy).Contents (Elt Ideal)) (x8 : (⟨S768x256, .f32⟩ : BufTy).Contents (Elt Ideal)) (x9 x10 : (⟨S768, .f32⟩ : BufTy).Contents (Elt Ideal)) (x11 : (⟨S256x512, .f32⟩ : BufTy).Contents (Elt Ideal)) (x12 : (⟨S256, .f32⟩ : BufTy).Contents (Elt Ideal)) :
    Cert.ReferenceIdeal.Read.val_main_v54 (F := Ideal) x0 x1 x2 x3 x4 x5 x6 x7 x8 x9 x10 x11 x12 = Cert.GruSpec.G x0 x1 x2 x3 x4 x5 x6 x7 x8 x9 x10 x11 x12 := by
  funext i
  obtain ⟨p, q, rfl⟩ : ∃ (p : Fin 10000) (q : Fin 256), i = ix2 p q := ⟨i 0, i 1, eq_ix2 i⟩
  rw [result_at]
  rfl

end Cert.ReferenceIdeal.RefValue

end
-- ==== Proof.lean ====
/-
  The memory updater kernel against its reference: both compute, at the ideal values, one function G of the thirteen
  argument arrays (Proof/GruSpec.lean): a gated recurrent cell on each row of the batch whose input is the row of
  `mem_input` followed by 100 cosine time features, plus a linear map of the node features.

  The kernel splits the 356-wide input contraction into the 256 columns of `mem_input` and the 100 time features, the
  latter padded with zero weights to 128, and runs it block by block over five blocks of 2000 rows; the reference joins
  the two pieces and contracts once. On the extended reals the two agree without any finiteness: a sum may be split and
  regrouped freely, and a term with a zero weight vanishes whatever its other factor is. The sigmoid the kernel applies
  as one operation is by definition the quotient 1 / (1 + exp (-x)) the reference spells out.

  The kernel's side: what the body stores at an entry (Proof/KernelPayload.lean), that a block of it is a block of G when
  the staged blocks are the launch's pieces of the arguments (Proof/BlockLaw.lean, with the host-built operands read in
  Proof/HostLayouts.lean and Proof/HostPadded.lean), and that the five blocks tile the result (Proof/KernelValue.lean).
  The reference's side: its last stage is G (Proof/RefIsSpec.lean). The three frames are the generated ones, and the
  idealization changed no operation, so its conjunct is trivial.
-/
import proofs.«122590_g31224412242761_cont_9to1_2055_5_alg».proof.Defs
import proofs.«122590_g31224412242761_cont_9to1_2055_5_alg».proof.Proof.Gen.Kernel
import proofs.«122590_g31224412242761_cont_9to1_2055_5_alg».proof.Proof.Gen.Kernel.Skeleton
import proofs.«122590_g31224412242761_cont_9to1_2055_5_alg».proof.Proof.Gen.Kernel.Launch
import proofs.«122590_g31224412242761_cont_9to1_2055_5_alg».proof.Proof.Gen.Kernel.Points
import proofs.«122590_g31224412242761_cont_9to1_2055_5_alg».proof.Proof.Gen.Kernel.Frame
import proofs.«122590_g31224412242761_cont_9to1_2055_5_alg».proof.Proof.Gen.KernelIdeal
import proofs.«122590_g31224412242761_cont_9to1_2055_5_alg».proof.Proof.Gen.KernelIdeal.Skeleton
import proofs.«122590_g31224412242761_cont_9to1_2055_5_alg».proof.Proof.Gen.KernelIdeal.Launch
import proofs.«122590_g31224412242761_cont_9to1_2055_5_alg».proof.Proof.Gen.KernelIdeal.Points
import proofs.«122590_g31224412242761_cont_9to1_2055_5_alg».proof.Proof.Gen.KernelIdeal.Frame
import proofs.«122590_g31224412242761_cont_9to1_2055_5_alg».proof.Proof.Gen.ReferenceIdeal
import proofs.«122590_g31224412242761_cont_9to1_2055_5_alg».proof.Proof.Gen.Pre_finite_inputs
import proofs.«122590_g31224412242761_cont_9to1_2055_5_alg».proof.Proof.Gen.KernelIdeal.Value
import proofs.«122590_g31224412242761_cont_9to1_2055_5_alg».proof.Proof.Gen.ReferenceIdeal.Run
import proofs.«122590_g31224412242761_cont_9to1_2055_5_alg».proof.Proof.Gen.ReferenceIdeal.Read
import proofs.«122590_g31224412242761_cont_9to1_2055_5_alg».proof.Proof.KernelValue
import proofs.«122590_g31224412242761_cont_9to1_2055_5_alg».proof.Proof.RefIsSpec
import Idealize.ShloMosaic.Adequacy
import Idealize.ShloMosaic.Init

noncomputable section

namespace Cert.Proof

open Idealize.ShloMosaic Idealize.ShloMosaic.TcCoe Idealize.SL.Sem

/-- Both idealized programs end with G of the arguments in their result array: the kernel by its value leg, the
    reference by its run read stage by stage; the memories agree on the arguments, so the two G's are one. -/
theorem algebraic : Cert.algebraic_KernelIdeal_ReferenceIdeal := by
  intro m ρ m' ρ' _ hagree
  refine ⟨fun c => Cert.KernelIdeal.Whole.Gk m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, Cert.ReferenceIdeal.RefValue.ref_eq_G]
  obtain ⟨h0, h1, h2, h3, h4, h5, h6, h7, h8, h9, h10, h11, h12⟩ := hagree c
  rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
